-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v53_0)) (v1 : (c : Dev Cert.KernelIdeal.nD) → Buf (Elt Ideal) ((c.tc : Thread Cert.KernelIdeal.nD Cert.KernelIdeal.τ).loc Cert.KernelIdeal.main_v53_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53_0) = v0 c
          ∧ r.2.mem ((c.tc : Thread Cert.KernelIdeal.nD Cert.KernelIdeal.τ).loc Cert.KernelIdeal.main_v53_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3 : Shape := ⟨2, ![50000, 3]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S257x128 : S_.BroadcastsInDim S257x128 (![] : Fin 0 → Fin S257x128.rank)
  reducesTo_S257x128_S_d0_1 : S257x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S128 .f32) (main_arg8 : FVec F S128x128 .f32) (main_arg9 : FVec F S128 .f32) (main_arg10 : FVec F S128x1 .f32) (main_arg11 : FVec F S1 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg10
  let main_cst_18 : FVec F S_ .f32 := constant S_ .f32 0x7F800000#32
  let main_v50 : FVec F S128x1 .f32 := broadcastInDim S128x1 ![] bcast_S_S128x1 main_cst_18
  fn_part3 (F := F) main_arg11 main_v48 main_v49 main_v50

def fn_part1 {F : FTy → Type} [FloatOps F] (main_arg4 : FVec F S128x128 .f32) (main_arg5 : FVec F S128 .f32) (main_arg6 : FVec F S256x128 .f32) (main_arg7 : FVec F S128 .f32) (main_arg8 : FVec F S128x128 .f32) (main_arg9 : FVec F S128 .f32) (main_arg10 : FVec F S128x1 .f32) (main_arg11 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S50000x128 .f32) (main_arg1 : FVec F S50000x3 .f32) (main_arg2 : FVec F S257x128 .f32) (main_arg3 : FVec F S128 .f32) (main_arg4 : FVec F S128x128 .f32) (main_arg5 : FVec F S128 .f32) (main_arg6 : FVec F S256x128 .f32) (main_arg7 : FVec F S128 .f32) (main_arg8 : FVec F S128x128 .f32) (main_arg9 : FVec F S128 .f32) (main_arg10 : FVec F S128x1 .f32) (main_arg11 : FVec F S1 .f32) (main_arg12 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S257x128 .f32 := Host.absf main_arg2
  let main_cst_2 : FVec F S_ .f32 := constant S_ .f32 0x7F800000#32
  let main_v10 : FVec F S257x128 .f32 := broadcastInDim S257x128 ![] bcast_S_S257x128 main_cst_2
  let main_v11 : IVec S257x128 1 := cmpf .olt main_v9 main_v10
  let main_c_3 : IVec S_ 1 := constantI S_ 1 1#1
  let main_v12 : IVec S_ 1 := (fun x v => Host.reduce IntOp.andi x v reducesTo_S257x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_v13 main_v16
-- ==== Kernel.lean ====
abbrev S50000x128 : Shape := ⟨2, ![50000, 128]⟩
abbrev S50000x3 : Shape := ⟨2, ![50000, 3]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x3 : Shape := ⟨2, ![800000, 3]⟩
abbrev S1x128 : Shape := ⟨2, ![1, 128]⟩
abbrev S1x1 : Shape := ⟨2, ![1, 1]⟩
abbrev S4000x128 : Shape := ⟨2, ![4000, 128]⟩
abbrev S4000x3 : Shape := ⟨2, ![4000, 3]⟩
abbrev S4000 : Shape := ⟨1, ![4000]⟩
abbrev S4000x1 : Shape := ⟨2, ![4000, 1]⟩
abbrev S2000x128 : Shape := ⟨2, ![2000, 128]⟩
abbrev S2000x3 : Shape := ⟨2, ![2000, 3]⟩

abbrev nBuf : Space → Nat
  | .hbm => 79
  | .vmem => 35
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S257x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S2x800000, .i32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S50000x128, .bf16⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .bf16⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .bf16⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x3, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x3, .f32⟩
  | .hbm, ⟨54, _⟩ => ⟨S800000x3, .f32⟩
  | .hbm, ⟨55, _⟩ => ⟨S128x128, .f32⟩
  | .hbm, ⟨56, _⟩ => ⟨S128x128, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S1x1, .f32⟩
  | .hbm, ⟨62, _⟩ => ⟨S800000x128, .bf16⟩
  | .hbm, ⟨63, _⟩ => ⟨S800000x3, .f32⟩
  | .hbm, ⟨64, _⟩ => ⟨S800000x128, .f32⟩
  | .hbm, ⟨65, _⟩ => ⟨S_, .f32⟩
  | .hbm, ⟨66, _⟩ => ⟨S50000x128, .f32⟩
  | .hbm, ⟨67, _⟩ => ⟨S800000x1, .i32⟩
  | .hbm, ⟨68, _⟩ => ⟨S50000x128, .f32⟩
  | .hbm, ⟨69, _⟩ => ⟨S_, .f32⟩
  | .hbm, ⟨70, _⟩ => ⟨S50000x3, .f32⟩
  | .hbm, ⟨71, _⟩ => ⟨S800000x1, .i32⟩
  | .hbm, ⟨72, _⟩ => ⟨S50000x3, .f32⟩
  | .hbm, ⟨73, _⟩ => ⟨S128x128, .f32⟩
  | .hbm, ⟨74, _⟩ => ⟨S128x128, .f32⟩
  | .hbm, ⟨75, _⟩ => ⟨S1x128, .f32⟩
  | .hbm, ⟨76, _⟩ => ⟨S1x128, .f32⟩
  | .hbm, ⟨77, _⟩ => ⟨S50000x128, .f32⟩
  | .hbm, ⟨78, _⟩ => ⟨S50000x3, .f32⟩
  | .local _ .vmem, ⟨0, _⟩ => ⟨S4000x128, .bf16⟩
  | .local _ .vmem, ⟨1, _⟩ => ⟨S4000x128, .bf16⟩
  | .local _ .vmem, ⟨2, _⟩ => ⟨S4000x128, .bf16⟩
  | .local _ .vmem, ⟨3, _⟩ => ⟨S4000x128, .bf16⟩
  | .local _ .vmem, ⟨4, _⟩ => ⟨S4000x3, .f32⟩
  | .local _ .vmem, ⟨5, _⟩ => ⟨S4000x3, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S1x128, .f32⟩
  | .local _ .vmem, ⟨13, _⟩ => ⟨S1x1, .f32⟩
  | .local _ .vmem, ⟨14, _⟩ => ⟨S4000x128, .bf16⟩
  | .local _ .vmem, ⟨15, _⟩ => ⟨S4000x128, .bf16⟩
  | .local _ .vmem, ⟨16, _⟩ => ⟨S4000x3, .f32⟩
  | .local _ .vmem, ⟨17, _⟩ => ⟨S4000x3, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x3, .f32⟩
  | .local _ .vmem, ⟨23, _⟩ => ⟨S2000x3, .f32⟩
  | .local _ .vmem, ⟨24, _⟩ => ⟨S2000x3, .f32⟩
  | .local _ .vmem, ⟨25, _⟩ => ⟨S2000x3, .f32⟩
  | .local _ .vmem, ⟨26, _⟩ => ⟨S128x128, .f32⟩
  | .local _ .vmem, ⟨27, _⟩ => ⟨S128x128, .f32⟩
  | .local _ .vmem, ⟨28, _⟩ => ⟨S1x128, .f32⟩
  | .local _ .vmem, ⟨29, _⟩ => ⟨S128x128, .f32⟩
  | .local _ .vmem, ⟨30, _⟩ => ⟨S1x128, .f32⟩
  | .local _ .vmem, ⟨31, _⟩ => ⟨S2000x128, .f32⟩
  | .local _ .vmem, ⟨32, _⟩ => ⟨S2000x128, .f32⟩
  | .local _ .vmem, ⟨33, _⟩ => ⟨S2000x3, .f32⟩
  | .local _ .vmem, ⟨34, _⟩ => ⟨S2000x3, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_1 : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41_0 : Ref sig .tc := ⟨.hbm, 62, rfl⟩
abbrev main_v41_1 : Ref sig .tc := ⟨.hbm, 63, rfl⟩
abbrev main_v42 : Ref sig .tc := ⟨.hbm, 64, rfl⟩
abbrev main_cst : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_7 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53_0 : Ref sig .tc := ⟨.hbm, 77, rfl⟩
abbrev main_v53_1 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg8_0 : Ref sig .tc := ⟨.vmem, 30, rfl⟩
abbrev cc1_stg9_0 : Ref sig .tc := ⟨.vmem, 31, rfl⟩
abbrev cc1_stg9_1 : Ref sig .tc := ⟨.vmem, 32, rfl⟩
abbrev cc1_stg10_0 : Ref sig .tc := ⟨.vmem, 33, rfl⟩
abbrev cc1_stg10_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem5_0 : DmaSem sig := 27
abbrev cc1_sem6_0 : DmaSem sig := 28
abbrev cc1_sem7_0 : DmaSem sig := 29
abbrev cc1_sem8_0 : DmaSem sig := 30
abbrev cc1_sem9_0 : DmaSem sig := 31
abbrev cc1_sem9_1 : DmaSem sig := 32
abbrev cc1_sem10_0 : DmaSem sig := 33
abbrev cc1_sem10_1 : DmaSem sig := 34

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4000x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4000x3 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x3 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2000x3 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  slices_S257x128_S128x128_0_0 : S257x128.Slices ![0, 0] S128x128
  slices_S257x128_S128x128_128_0 : S257x128.Slices ![128, 0] S128x128
  slices_S257x128_S1x128_256_0 : S257x128.Slices ![256, 0] S1x128
  shapeCasts_S128_S1x128 : S128.ShapeCasts S1x128
  transposes_S128x1_S1x128_1_0 : S128x1.Transposes [1, 0] S1x128
  shapeCasts_S1_S1x1 : S1.ShapeCasts S1x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x3_S4000x3_0_0 : ∀ a, (![0, 0] : Fin 2 → Nat) a + S4000x3.size a ≤ S4000x3.size a
  h_S4000x3 : 0 < S4000x3.numel
  shapeCasts_S4000x3_S4000x3 : S4000x3.ShapeCasts S4000x3
  reduces_S4000x3_S4000 : S4000x3.Reduces [1] S4000
  shapeCasts_S4000_S4000x1 : S4000.ShapeCasts S4000x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S4000x1_S4000x128 : S4000x1.Broadcasts S4000x128
  broadcasts_S1x128_S4000x128 : S1x128.Broadcasts S4000x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  reduces_S4000x128_S4000 : S4000x128.Reduces [1] S4000
  broadcasts_S1x1_S4000x1 : S1x1.Broadcasts S4000x1
  broadcasts_S4000x1_S4000x3 : S4000x1.Broadcasts S4000x3
  packedbf16_S4000x128_S4000x128_0_0 : (Rect.unit (s := S4000x128) ![0, 0] S4000x128.size inb_S4000x128_S4000x128_0_0).PackedRows (EltTy.packing .bf16)
  bcast_S_S50000x128 : S_.BroadcastsInDim S50000x128 (![] : Fin 0 → Fin S50000x128.rank)
  bcast_S_S50000x3 : S_.BroadcastsInDim S50000x3 (![] : Fin 0 → Fin S50000x3.rank)
  slices_S256x128_S128x128_0_0 : S256x128.Slices ![0, 0] S128x128
  slices_S256x128_S128x128_128_0 : S256x128.Slices ![128, 0] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  inb_S2000x3_S2000x3_0_0 : ∀ a, (![0, 0] : Fin 2 → Nat) a + S2000x3.size a ≤ S2000x3.size a
  h_S2000x3 : 0 < S2000x3.numel
  shapeCasts_S2000x3_S2000x3 : S2000x3.ShapeCasts S2000x3
  gather_S50000x128_S800000x1_S800000x128_1_0_n_n_0_1_1128_wf : GatherDims.WF S50000x128 S800000x1 S800000x128 [1] [0] [] [0] [] 1 ![1, 128]
  gather_S50000x3_S800000x1_S800000x3_1_0_n_n_0_1_13_wf : GatherDims.WF S50000x3 S800000x1 S800000x3 [1] [0] [] [0] [] 1 ![1, 3]
  dot_S4000x128_S128x128_S4000x128_1_0_0_1_n_n_wf : DotDims.WF S4000x128 S128x128 S4000x128 [1] [0] [0] [1] [] []
  scatter_S50000x128_S800000x1_S800000x128_1_0_0_1_wf : ScatterDims.WF S50000x128 S800000x1 S800000x128 [1] [0] [0] 1
  scatter_S50000x3_S800000x1_S800000x3_1_0_0_1_wf : ScatterDims.WF S50000x3 S800000x1 S800000x3 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S800000x128.size a
  hwx0_0 : ∀ i : grid0.Coords, EltTy.bits .bf16 = 32 ∨ (Rect.block (s := S800000x128) S4000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S800000x128.size a
  hwx0_1 : ∀ i : grid0.Coords, EltTy.bits .bf16 = 32 ∨ (Rect.block (s := S800000x128) S4000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x3.size a ≤ S800000x3.size a
  hwx0_2 : ∀ i : grid0.Coords, EltTy.bits .f32 = 32 ∨ (Rect.block (s := S800000x3) S4000x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x128.size a ≤ S800000x128.size a
  hwx0_11 : ∀ i : grid0.Coords, EltTy.bits .bf16 = 32 ∨ (Rect.block (s := S800000x128) S4000x128.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4000x3.size a ≤ S800000x3.size a
  hwx0_12 : ∀ i : grid0.Coords, EltTy.bits .f32 = 32 ∨ (Rect.block (s := S800000x3) S4000x3.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x3.size a ≤ S50000x3.size a
  hwx1_2 : ∀ i : grid1.Coords, EltTy.bits .f32 = 32 ∨ (Rect.block (s := S50000x3) S2000x3.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x3.size a ≤ S50000x3.size a
  hwx1_3 : ∀ i : grid1.Coords, EltTy.bits .f32 = 32 ∨ (Rect.block (s := S50000x3) S2000x3.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S50000x128.size a
  hwx1_9 : ∀ i : grid1.Coords, EltTy.bits .f32 = 32 ∨ (Rect.block (s := S50000x128) S2000x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x3.size a ≤ S50000x3.size a
  hwx1_10 : ∀ i : grid1.Coords, EltTy.bits .f32 = 32 ∨ (Rect.block (s := S50000x3) S2000x3.size (cc1_transform_10 i) (hinb1_10 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v11) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S4000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v34) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v36) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v37) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v38) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v39) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v40) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v41_0) S4000x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v41_1) S4000x3.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S2000x3.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v48) S2000x3.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v49) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v50) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v51) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v52) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v53_0) S2000x128.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v53_1) S2000x3.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x3 : Shape := ⟨2, ![50000, 3]⟩
abbrev S257x128 : Shape := ⟨2, ![257, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x3 : Shape := ⟨2, ![800000, 3]⟩
abbrev S800000x128 : Shape := ⟨2, ![800000, 128]⟩
abbrev S800000x257 : Shape := ⟨2, ![800000, 257]⟩
abbrev S1x128 : Shape := ⟨2, ![1, 128]⟩
abbrev S50000x256 : Shape := ⟨2, ![50000, 256]⟩
abbrev S1x1 : Shape := ⟨2, ![1, 1]⟩

abbrev nBuf : Space → Nat
  | .hbm => 130
  | .vmem => 0
  | .smem => 0
  | _ => 0

abbrev hbmTy0_0 (i : Nat) : BufTy := match i % 128 with
  | 0 => ⟨S50000x128, .f32⟩
  | 1 => ⟨S50000x3, .f32⟩
  | 2 => ⟨S257x128, .f32⟩
  | 3 => ⟨S128, .f32⟩
  | 4 => ⟨S128x128, .f32⟩
  | 5 => ⟨S128, .f32⟩
  | 6 => ⟨S256x128, .f32⟩
  | 7 => ⟨S128, .f32⟩
  | 8 => ⟨S128x128, .f32⟩
  | 9 => ⟨S128, .f32⟩
  | 10 => ⟨S128x1, .f32⟩
  | 11 => ⟨S1, .f32⟩
  | 12 => ⟨S2x800000, .i32⟩
  | 13 => ⟨S1x800000, .i32⟩
  | 14 => ⟨S800000, .i32⟩
  | 15 => ⟨S1x800000, .i32⟩
  | 16 => ⟨S800000, .i32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x3, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x3, .f32⟩
  | 35 => ⟨S800000x3, .f32⟩
  | 36 => ⟨S800000x3, .f32⟩
  | 37 => ⟨S_, .f32⟩
  | 38 => ⟨S800000, .f32⟩
  | 39 => ⟨S800000x1, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x128, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x128, .f32⟩
  | 58 => ⟨S800000x257, .f32⟩
  | 59 => ⟨S800000x128, .f32⟩
  | 60 => ⟨S1x128, .f32⟩
  | 61 => ⟨S800000x128, .f32⟩
  | 62 => ⟨S800000x128, .f32⟩
  | 63 => ⟨S800000x128, .f32⟩
  | 64 => ⟨S800000x128, .f32⟩
  | 65 => ⟨S_, .f32⟩
  | 66 => ⟨S800000x128, .f32⟩
  | 67 => ⟨S800000x128, .f32⟩
  | 68 => ⟨S_, .f32⟩
  | 69 => ⟨S800000x128, .f32⟩
  | 70 => ⟨S800000x128, .f32⟩
  | 71 => ⟨S800000x128, .f32⟩
  | 72 => ⟨S800000x128, .f32⟩
  | 73 => ⟨S1x128, .f32⟩
  | 74 => ⟨S800000x128, .f32⟩
  | 75 => ⟨S800000x128, .f32⟩
  | 76 => ⟨S800000x128, .f32⟩
  | 77 => ⟨S800000x128, .f32⟩
  | 78 => ⟨S_, .f32⟩
  | 79 => ⟨S800000x128, .f32⟩
  | 80 => ⟨S800000x128, .f32⟩
  | 81 => ⟨S_, .f32⟩
  | 82 => ⟨S800000x128, .f32⟩
  | 83 => ⟨S800000x128, .f32⟩
  | 84 => ⟨S800000x128, .f32⟩
  | 85 => ⟨S_, .f32⟩
  | 86 => ⟨S50000x128, .f32⟩
  | 87 => ⟨S800000x1, .i32⟩
  | 88 => ⟨S50000x128, .f32⟩
  | 89 => ⟨S50000x256, .f32⟩
  | 90 => ⟨S50000x128, .f32⟩
  | 91 => ⟨S1x128, .f32⟩
  | 92 => ⟨S50000x128, .f32⟩
  | 93 => ⟨S50000x128, .f32⟩
  | 94 => ⟨S50000x128, .f32⟩
  | 95 => ⟨S50000x128, .f32⟩
  | 96 => ⟨S_, .f32⟩
  | 97 => ⟨S50000x128, .f32⟩
  | 98 => ⟨S50000x128, .f32⟩
  | 99 => ⟨S_, .f32⟩
  | 100 => ⟨S50000x128, .f32⟩
  | 101 => ⟨S50000x128, .f32⟩
  | 102 => ⟨S50000x128, .f32⟩
  | 103 => ⟨S50000x128, .f32⟩
  | 104 => ⟨S1x128, .f32⟩
  | 105 => ⟨S50000x128, .f32⟩
  | 106 => ⟨S50000x128, .f32⟩
  | 107 => ⟨S800000x1, .f32⟩
  | 108 => ⟨S1x1, .f32⟩
  | 109 => ⟨S800000x1, .f32⟩
  | 110 => ⟨S800000x1, .f32⟩
  | 111 => ⟨S800000x1, .f32⟩
  | 112 => ⟨S800000x1, .f32⟩
  | 113 => ⟨S_, .f32⟩
  | 114 => ⟨S800000x1, .f32⟩
  | 115 => ⟨S800000x1, .f32⟩
  | 116 => ⟨S_, .f32⟩
  | 117 => ⟨S800000x1, .f32⟩
  | 118 => ⟨S800000x1, .f32⟩
  | 119 => ⟨S800000x1, .f32⟩
  | 120 => ⟨S800000x3, .f32⟩
  | 121 => ⟨S800000x3, .f32⟩
  | 122 => ⟨S_, .f32⟩
  | 123 => ⟨S50000x3, .f32⟩
  | 124 => ⟨S800000x1, .i32⟩
  | 125 => ⟨S50000x3, .f32⟩
  | 126 => ⟨S_, .f32⟩
  | 127 => ⟨S50000x3, .f32⟩
  | _ => ⟨S50000x128, .f32⟩

abbrev hbmTy0_1 (i : Nat) : BufTy := match i % 128 with
  | 0 => ⟨S50000x3, .f32⟩
  | 1 => ⟨S50000x3, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst : Ref sig .tc := ⟨.hbm, 37, rfl⟩
abbrev main_v20 : Ref sig .tc := ⟨.hbm, 38, rfl⟩
abbrev main_v21 : Ref sig .tc := ⟨.hbm, 39, rfl⟩
abbrev main_c_3 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_7 : Ref sig .tc := ⟨.hbm, 65, rfl⟩
abbrev main_v43 : Ref sig .tc := ⟨.hbm, 66, rfl⟩
abbrev main_v44 : Ref sig .tc := ⟨.hbm, 67, rfl⟩
abbrev main_cst_8 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_9 : Ref sig .tc := ⟨.hbm, 78, rfl⟩
abbrev main_v54 : Ref sig .tc := ⟨.hbm, 79, rfl⟩
abbrev main_v55 : Ref sig .tc := ⟨.hbm, 80, rfl⟩
abbrev main_cst_10 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_12 : Ref sig .tc := ⟨.hbm, 96, rfl⟩
abbrev main_v69 : Ref sig .tc := ⟨.hbm, 97, rfl⟩
abbrev main_v70 : Ref sig .tc := ⟨.hbm, 98, rfl⟩
abbrev main_cst_13 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_14 : Ref sig .tc := ⟨.hbm, 113, rfl⟩
abbrev main_v84 : Ref sig .tc := ⟨.hbm, 114, rfl⟩
abbrev main_v85 : Ref sig .tc := ⟨.hbm, 115, rfl⟩
abbrev main_cst_15 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_16 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_17 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  concatenates_S800000x128_S800000x128_S800000x1_S800000x257_d1 : Shape.Concatenates [S800000x128, S800000x128, S800000x1] S800000x257 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  bcast_S800000x1_S800000x3_0_1 : S800000x1.BroadcastsInDim S800000x3 (![0, 1] : Fin 2 → Fin S800000x3.rank)
  bcast_S_S50000x3 : S_.BroadcastsInDim S50000x3 (![] : Fin 0 → Fin S50000x3.rank)
  gather_S50000x3_S800000x1_S800000x3_1_0_n_n_0_1_13_wf : GatherDims.WF S50000x3 S800000x1 S800000x3 [1] [0] [] [0] [] 1 ![1, 3]
  gather_S50000x128_S800000x1_S800000x128_1_0_n_n_0_1_1128_wf : GatherDims.WF S50000x128 S800000x1 S800000x128 [1] [0] [] [0] [] 1 ![1, 128]
  dot_S800000x257_S257x128_S800000x128_1_0_0_1_n_n_wf : DotDims.WF S800000x257 S257x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  dot_S800000x128_S128x1_S800000x1_1_0_0_1_n_n_wf : DotDims.WF S800000x128 S128x1 S800000x1 [1] [0] [0] [1] [] []
  scatter_S50000x3_S800000x1_S800000x3_1_0_0_1_wf : ScatterDims.WF S50000x3 S800000x1 S800000x3 [1] [0] [0] 1

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x257_S257x128_S800000x128_1_0_0_1_n_n : DotDims S800000x257 S257x128 S800000x128 where
  lhsContracting := [1]
  rhsContracting := [0]
  lhsNonContracting := [0]
  rhsNonContracting := [1]
  lhsBatch := []
  rhsBatch := []
  wf := dot_S800000x257_S257x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf

class Facts : Prop extends Facts₀ where

variable [Facts]
-- ==== Proof.KernelRun.lean ====
/-
  The idealized kernel program's run with its two results named.

  The program is four segments: host operations, the edge kernel's region, host operations, the node kernel's region.
  Every weakly fair execution terminates, nothing faulting, and leaves every buffer the host can see at the contents
  the four segments compose to (`W4`: each region's outputs at what its write-backs leave, every other buffer as the
  segment before left it); in particular the two results, and the thirteen arguments as launched. This is the frame
  run of the segments once more, read at the results as well as at the arguments.
-/
import proofs.«128185_j38938173506036_2_alg».proof.Proof.KernelIdealFrameP

set_option maxRecDepth 16384

noncomputable section

namespace Cert.KernelIdeal.RunNamed

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_named : θ_run defs (onTc (τ := τ) (main (F := F))) ⟨m, fun _ => 0, ρ⟩ (fun r => ∀ c : Dev nD,
      r.2.mem ((c.tc : Thread nD τ).loc main_v53_0) = W4 m ρ c (Proc.devRef .tc main_v53_0)
      ∧ r.2.mem ((c.tc : Thread nD τ).loc main_v53_1) = W4 m ρ c (Proc.devRef .tc main_v53_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v53_0 (by decide)), h c _ (mem_uc main_v53_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c)⟩)

end Cert.KernelIdeal.RunNamed

end
-- ==== Proof.LibPlainDot.lean ====
/-
  The plain matrix product read at an entry, over the extended reals.

  For the dimension numbers of an ordinary product of an `M × K` matrix by a `K × N` matrix
  (`DotDims.plain M K N`: no batch axis, the left operand contracted on its columns, the right one on its rows),
  at the ideal values:

  * a `tpu.matmul` into the zero accumulator, at entry `(p, q)`, is `∑ k, lhs (p, k) * rhs (k, q)`
    (`matmul_zero_plain`);
  * the host's `dot_general`, at entry `(p, q)`, is the same sum, whatever its schedule key (`dotGeneral_plain`).

  Both are generic in the three extents and in the operands' float formats (a change of format is the identity
  at the ideal values). The contraction index of these dimension numbers has one axis, of extent `K`; the sum over
  it is re-indexed to a sum over `Fin K` through `ValueIdx.contrEquiv1`, and the operand indices at output index
  `(p, q)` and contraction coordinate `k` are `(p, k)` and `(k, q)`, coordinate by coordinate.
-/
import Idealize.ShloMosaic.Lib.ValueIdx
import Idealize.ShloMosaic.PureOps.Ideal.Laws

open Idealize.ShloMosaic Idealize.ShloMosaic.ValueIdx
open scoped BigOperators

noncomputable section

namespace Cert.LibPlainDot

variable {M K N : Nat}

/-- The left operand's index at output `(p, q)` and contraction coordinate `k` is `(p, k)`. -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ => exact contrEquiv1_symm_val (DotDims.plain M K N) K rfl rfl k)

/-- The right operand's index at output `(p, q)` and contraction coordinate `k` is `(k, q)`. -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact contrEquiv1_symm_val (DotDims.plain M K N) K rfl rfl k
    | ⟨1, _⟩ => rfl)

/-- A `tpu.matmul` of an `M × K` by a `K × N` operand into the zero accumulator, at entry `(p, q)`: the sum over
    `k` of `lhs (p, k) * rhs (k, q)`. -/
theorem matmul_zero_plain {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- The host's `dot_general` of an `M × K` by a `K × N` operand, at entry `(p, q)`: the same sum. -/
theorem dotGeneral_plain {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.LibPlainDot

end
-- ==== Proof.LibPayOps.lean ====
/-
  General facts used when a stored value is read at an index, at the ideal (extended real) values.

  * The fold of the binary maximum over a finite set, started from the bottom element, is the supremum over that set.
  * The 32-bit word 0xFF800000 denotes minus infinity (the bottom extended real); the word 0xC0000000 denotes the real -2.
  * A reduction by maximum over the FIRST axis of an [a, b] array started from minus infinity is, at column c,
    the supremum over the rows k of entry (k, c).
  * The "ordered greater than" comparison as a one-bit word, and a selection driven by it as an if-then-else.
-/
import Idealize.ShloMosaic.PureOps.Ideal.Laws
import Idealize.ShloMosaic.Lib.Pipeline.Value
import Idealize.ShloMosaic.Lib.ValueIdx

noncomputable section

open scoped BigOperators

namespace Cert.LibPayOps

open Idealize.ShloMosaic Idealize.ShloMosaic.ValueIdx

/-- Folding the binary maximum from the bottom element over a finite set gives the supremum over the set. -/
theorem fold_max_bot_eq_sup {ι : Type} (s : Finset ι) (f : ι → EReal) : s.fold max ⊥ f = s.sup f := by
  classical
  induction s using Finset.induction_on with
  | empty => simp
  | insert a s ha ih => rw [Finset.fold_insert ha, Finset.sup_insert, ih]

/-- The word 0xFF800000 (sign set, exponent all ones, fraction zero) is minus infinity. -/
theorem ofBits_f32_neg_inf : Ideal.ofBits .f32 0xFF800000#32 = (⊥ : EReal) := by
  simp [Ideal.ofBits, Ideal.ieee]

/-- The word 0xC0000000 (sign set, exponent 128, fraction zero) is the real number -2. -/
theorem ofBits_f32_neg_two : Ideal.ofBits .f32 0xC0000000#32 = ((-2 : ℝ) : EReal) := by
  simp [Ideal.ofBits, Ideal.ieee]
  rw [← EReal.coe_mul]
  norm_num

/-- A selection driven by "x is greater than y" is the if-then-else on y < x. -/
theorem select_ogt (x y a b : EReal) :
    Scalar.select (Ideal.cmp .ogt x y) a b = if y < x then a else b := by
  unfold Ideal.cmp
  by_cases h : y < x
  · rw [if_pos h]; simp [h, Scalar.select]
  · rw [if_neg h]; simp [h, Scalar.select]

/-- The maximum down the columns of an [a, b] array (a reduction over its first axis from minus infinity), at column c. -/
theorem columnMax_apply {a b : ℕ} (src : FVec Ideal ⟨2, ![a, b]⟩ .f32)
    (h : Shape.Reduces ⟨2, ![a, b]⟩ [0] ⟨1, ![b]⟩) (hφ : FKind.Formats .f32)
    (hacc : (0xFF800000#32 : BitVec 32) = FKind.maximumf.neutral .f32 hφ) (c : Fin b) :
    multiReduction .maximumf [0] ⟨1, ![b]⟩ src 0xFF800000#32 h hφ hacc (ix1 c)
      = Finset.univ.sup fun k : Fin a => src (ix2 k c) := by
  refine (Ideal.multiReduction_maximumf_single src 0xFF800000#32 h hφ hacc (ix1 c)).trans ?_
  refine (congrArg (fun z => (Finset.univ : Finset (Fin ((⟨2, ![a, b]⟩ : Shape).size 0))).fold max z
    (src ∘ h.lift (ix1 c))) ofBits_f32_neg_inf).trans ?_
  refine (fold_max_bot_eq_sup _ _).trans ?_
  exact congrArg (Finset.univ.sup) (funext fun k => congrArg src (funext fun d => Fin.ext (by
    match d with
    | ⟨0, _⟩ => rfl
    | ⟨1, _⟩ => rfl)))

end Cert.LibPayOps

end
-- ==== Proof.LibRowReduceProducts.lean ====
/-
  Reductions along the rows of a matrix, sums down its columns, and two orientations of the matrix product, each read
  at an index at the ideal (extended real) values and generic in the extents.

  * rowMax_apply   — a reduction by maximum over the SECOND axis of an [a, b] array started from minus infinity is, at
                     row r, the supremum over the columns k of entry (r, k);
  * rowSum_apply   — a reduction by addition over the second axis from zero is, at row r, the sum over k of entry (r, k);
  * colSum_apply   — a reduction by addition over the first axis from zero is, at column c, the sum over k of entry (k, c);
  * matmulNT       — an [M, K] array against an [N, K] array contracted over their second axes into a zero accumulator:
                     entry (e, o) is the sum over r of x (e, r) * y (o, r) (left operand times the transpose of the right);
  * matmulNN       — an [M, K] array against a [K, N] array, the plain product: entry (e, o) is the sum over r of
                     x (e, r) * y (r, o).
-/
import Idealize.ShloMosaic.PureOps.Ideal.Laws
import Idealize.ShloMosaic.Lib.Pipeline.Value
import Idealize.ShloMosaic.Lib.ValueIdx
import proofs.«128185_j38938173506036_2_alg».proof.Proof.LibPayOps

noncomputable section

open scoped BigOperators

namespace Cert.LibRowReduceProducts

open Idealize.ShloMosaic Idealize.ShloMosaic.ValueIdx

/-! ## Reductions -/

/-- The maximum along the rows of an [a, b] array (a reduction over its second axis from minus infinity), at row r. -/
theorem rowMax_apply {a b : ℕ} (src : FVec Ideal ⟨2, ![a, b]⟩ .f32)
    (h : Shape.Reduces ⟨2, ![a, b]⟩ [1] ⟨1, ![a]⟩) (hφ : FKind.Formats .f32)
    (hacc : (0xFF800000#32 : BitVec 32) = FKind.maximumf.neutral .f32 hφ) (r : Fin a) :
    multiReduction .maximumf [1] ⟨1, ![a]⟩ src 0xFF800000#32 h hφ hacc (ix1 r)
      = Finset.univ.sup fun k : Fin b => src (ix2 r k) := by
  refine (Ideal.multiReduction_maximumf_single src 0xFF800000#32 h hφ hacc (ix1 r)).trans ?_
  refine (congrArg (fun z => (Finset.univ : Finset (Fin ((⟨2, ![a, b]⟩ : Shape).size 1))).fold max z
    (src ∘ h.lift (ix1 r))) Cert.LibPayOps.ofBits_f32_neg_inf).trans ?_
  refine (Cert.LibPayOps.fold_max_bot_eq_sup _ _).trans ?_
  exact congrArg (Finset.univ.sup) (funext fun k => congrArg src (funext fun d => Fin.ext (by
    match d with
    | ⟨0, _⟩ => rfl
    | ⟨1, _⟩ => rfl)))

/-- The sum along the rows of an [a, b] array (a reduction by addition over its second axis from zero), at row r. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (funext fun d => Fin.ext (by
    match d with
    | ⟨0, _⟩ => rfl
    | ⟨1, _⟩ => rfl))

/-- The sum down the columns of an [a, b] array (a reduction by addition over its first axis from zero), at column c. -/
theorem colSum_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = FKind.add.neutral .f32 hφ) (c : Fin b) :
    multiReduction .add [0] ⟨1, ![b]⟩ src 0x00000000#32 h hφ hacc (ix1 c) = ∑ k : Fin a, src (ix2 k c) := by
  refine (Ideal.multiReduction_add_single src 0x00000000#32 h hφ hacc (ix1 c)).trans ?_
  exact Finset.sum_congr rfl fun k _ => congrArg src (funext fun d => Fin.ext (by
    match d with
    | ⟨0, _⟩ => rfl
    | ⟨1, _⟩ => rfl))

/-! ## The product with the transpose of the right operand -/

section NT

variable {K M N : ℕ}

/-- The dimension numbers contracting the second axis of both operands, over any evidence of well-formedness. -/
abbrev dimsNT (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ := ⟨[1], [1], [0], [0], [], [], wf⟩

variable (wf : DotDims.WF ⟨2, ![M, K]⟩ ⟨2, ![N, K]⟩ ⟨2, ![M, N]⟩ [1] [1] [0] [0] [] [])

/-- The left operand's first coordinate is the output's row coordinate, -/
theorem nt_lhs_free (j : (⟨2, ![M, N]⟩ : Shape).Idx) (q : (dimsNT wf).contr.Idx) :
    ((dimsNT wf).lhsIdx j q 0).val = (j 0).val := by
  unfold DotDims.lhsIdx
  rw [dif_neg (show ¬(0 : Fin 2) ∈ (dimsNT wf).lhsBatch from List.not_mem_nil),
    dif_pos (show (0 : Fin 2) ∈ (dimsNT wf).lhsNonContracting from List.mem_singleton.mpr rfl)]
  rfl

/-- and the right operand's first coordinate is the output's column coordinate. -/
theorem nt_rhs_free (j : (⟨2, ![M, N]⟩ : Shape).Idx) (q : (dimsNT wf).contr.Idx) :
    ((dimsNT wf).rhsIdx j q 0).val = (j 1).val := by
  unfold DotDims.rhsIdx
  rw [dif_neg (show ¬(0 : Fin 2) ∈ (dimsNT wf).rhsBatch from List.not_mem_nil),
    dif_pos (show (0 : Fin 2) ∈ (dimsNT wf).rhsNonContracting from List.mem_singleton.mpr rfl)]
  rfl

/-- Entry (e, o) of the product into a zero accumulator: row e of the left operand against row o of the right one. -/
theorem dimsNT_matmul_zero_apply {φ₁ φ₂ : FTy} (prec : Option ContractPrecision)
    (x : FVec Ideal ⟨2, ![M, K]⟩ φ₁) (y : FVec Ideal ⟨2, ![N, K]⟩ φ₂) (e : Fin M) (o : Fin N) :
    FloatOps.matmul (dimsNT wf) prec x y (constant ⟨2, ![M, N]⟩ .f32 0x00000000#32) (ix2 e o)
      = ∑ r : Fin K, x (ix2 e r) * y (ix2 o r) := by
  rw [Ideal.matmul_constant_zero_apply,
    ← Equiv.sum_comp (contrEquiv1 (dimsNT wf) K rfl rfl).symm]
  refine Finset.sum_congr rfl fun k _ => ?_
  have hk := contrEquiv1_symm_val (dimsNT wf) K rfl rfl k
  have el : (dimsNT wf).lhsIdx (ix2 e o)
      ((contrEquiv1 (dimsNT wf) K rfl rfl).symm k) = ix2 e k := funext fun a => Fin.ext (by
    match a with
    | ⟨0, _⟩ => exact nt_lhs_free wf _ _
    | ⟨1, _⟩ => exact ((dimsNT wf).lhsIdx_val_of_single rfl _ _).trans hk)
  have er : (dimsNT wf).rhsIdx (ix2 e o)
      ((contrEquiv1 (dimsNT wf) K rfl rfl).symm k) = ix2 o k := funext fun a => Fin.ext (by
    match a with
    | ⟨0, _⟩ => exact nt_rhs_free wf _ _
    | ⟨1, _⟩ => exact ((dimsNT wf).rhsIdx_val_of_single rfl _ _).trans hk)
  rw [el, er]

/-- The same for any dimension numbers whose six lists are those. -/
theorem matmulNT {φ₁ φ₂ : FTy} (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (x : FVec Ideal ⟨2, ![M, K]⟩ φ₁) (y : FVec Ideal ⟨2, ![N, K]⟩ φ₂)
    (e : Fin M) (o : Fin N) :
    FloatOps.matmul D prec x y (constant ⟨2, ![M, N]⟩ .f32 0x00000000#32) (ix2 e o)
      = ∑ r : Fin K, x (ix2 e r) * y (ix2 o r) := by
  obtain ⟨lc, rc, ln, rn, lb, rb, wf⟩ := D
  simp only at hlc hrc hln hrn hlb hrb
  subst hlc hrc hln hrn hlb hrb
  exact dimsNT_matmul_zero_apply wf prec x y e o

end NT

/-! ## The plain product -/

section NN

variable {K M N : ℕ}

/-- The dimension numbers contracting the left operand's second axis with the right operand's first. -/
abbrev dimsNN (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

/-- The left operand's first coordinate is the output's row coordinate, -/
theorem nn_lhs_free (j : (⟨2, ![M, N]⟩ : Shape).Idx) (q : (dimsNN wf).contr.Idx) :
    ((dimsNN wf).lhsIdx j q 0).val = (j 0).val := by
  unfold DotDims.lhsIdx
  rw [dif_neg (show ¬(0 : Fin 2) ∈ (dimsNN wf).lhsBatch from List.not_mem_nil),
    dif_pos (show (0 : Fin 2) ∈ (dimsNN wf).lhsNonContracting from List.mem_singleton.mpr rfl)]
  rfl

/-- and the right operand's second coordinate is the output's column coordinate. -/
theorem nn_rhs_free (j : (⟨2, ![M, N]⟩ : Shape).Idx) (q : (dimsNN wf).contr.Idx) :
    ((dimsNN wf).rhsIdx j q 1).val = (j 1).val := by
  unfold DotDims.rhsIdx
  rw [dif_neg (show ¬(1 : Fin 2) ∈ (dimsNN wf).rhsBatch from List.not_mem_nil),
    dif_pos (show (1 : Fin 2) ∈ (dimsNN wf).rhsNonContracting from List.mem_singleton.mpr rfl)]
  rfl

/-- Entry (e, o) of the product into a zero accumulator: row e of the left operand against column o of the right one. -/
theorem dimsNN_matmul_zero_apply {φ₁ φ₂ : FTy} (prec : Option ContractPrecision)
    (x : FVec Ideal ⟨2, ![M, K]⟩ φ₁) (y : FVec Ideal ⟨2, ![K, N]⟩ φ₂) (e : Fin M) (o : Fin N) :
    FloatOps.matmul (dimsNN wf) prec x y (constant ⟨2, ![M, N]⟩ .f32 0x00000000#32) (ix2 e o)
      = ∑ r : Fin K, x (ix2 e r) * y (ix2 r o) := by
  rw [Ideal.matmul_constant_zero_apply,
    ← Equiv.sum_comp (contrEquiv1 (dimsNN wf) K rfl rfl).symm]
  refine Finset.sum_congr rfl fun k _ => ?_
  have hk := contrEquiv1_symm_val (dimsNN wf) K rfl rfl k
  have el : (dimsNN wf).lhsIdx (ix2 e o)
      ((contrEquiv1 (dimsNN wf) K rfl rfl).symm k) = ix2 e k := funext fun a => Fin.ext (by
    match a with
    | ⟨0, _⟩ => exact nn_lhs_free wf _ _
    | ⟨1, _⟩ => exact ((dimsNN wf).lhsIdx_val_of_single rfl _ _).trans hk)
  have er : (dimsNN wf).rhsIdx (ix2 e o)
      ((contrEquiv1 (dimsNN wf) K rfl rfl).symm k) = ix2 k o := funext fun a => Fin.ext (by
    match a with
    | ⟨0, _⟩ => exact ((dimsNN wf).rhsIdx_val_of_single rfl _ _).trans hk
    | ⟨1, _⟩ => exact nn_rhs_free wf _ _)
  rw [el, er]

/-- The same for any dimension numbers whose six lists are those. -/
theorem matmulNN {φ₁ φ₂ : FTy} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![M, K]⟩ φ₁) (y : FVec Ideal ⟨2, ![K, N]⟩ φ₂)
    (e : Fin M) (o : Fin N) :
    FloatOps.matmul D prec x y (constant ⟨2, ![M, N]⟩ .f32 0x00000000#32) (ix2 e o)
      = ∑ r : Fin K, x (ix2 e r) * y (ix2 r o) := by
  obtain ⟨lc, rc, ln, rn, lb, rb, wf⟩ := D
  simp only at hlc hrc hln hrn hlb hrb
  subst hlc hrc hln hrn hlb hrb
  exact dimsNN_matmul_zero_apply wf prec x y e o

end NN

end Cert.LibRowReduceProducts

end
-- ==== Proof.LibKeepdimsCols.lean ====
/-
  Column vectors read at an index.

  A row reduction with `keepdims` leaves an `[a]` array that is then viewed as the column `[a, 1]` and broadcast along
  the rows of an `[a, b]` array. Read at an index:

  * an `[a]` array cast to `[a, 1]` reads, at `(p, u)`, the operand at `p` (`shapeCast_a_a1_apply`);
  * an `[a, 1]` column broadcast to `[a, b]` reads, at `(p, c)`, the column at `(p, 0)` (`broadcastTo_a1_ab_apply`).

  Both are generic in the extents and in the element type.
-/
import Idealize.ShloMosaic.Lib.Pipeline.Value
import Idealize.ShloMosaic.Lib.ValueIdx

namespace Cert.LibKeepdimsCols

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdimsCols
-- ==== Proof.RowMath.lean ====
/-
  The arithmetic of one message-passing layer, row by row, over the extended reals.

  An edge carries the feature rows of its two end nodes, `xr` and `xc` (128 entries each), and the difference `r` of
  their positions (3 entries). With `d = ∑ c, r c * r c` the squared length of `r`, the edge network is

    hidden  j = silu ((∑ k, xr k * A k j) + (∑ k, xc k * B k j) + d * cw j + b1 j)
    message j = silu ((∑ k, hidden k * W2 k j) + b2 j)
    gate      = silu ((∑ j, message j * wc j) + bc)
    shift   c = r c * gate

  where `silu v = v * logistic v`. A node with feature row `x` and summed incoming messages `a` gets

    inner j = silu ((∑ k, x k * A k j) + (∑ k, a k * B k j) + b1 j),   out j = (∑ k, inner k * W2 k j) + b2 j.

  The first layer of either network multiplies ONE weight matrix, whose rows are those of `A`, then those of `B` (then,
  for the edge network, the single row `cw`), by the concatenated row; `sum_split257` and `sum_split256` cut the sum over
  the concatenated axis into the sums over its parts. Addition of extended reals is commutative and associative, so
  the cut holds at the infinities too.
-/
import Idealize.ShloMosaic.PureOps.Ideal

open scoped BigOperators

noncomputable section

namespace Cert.Egnn

open Idealize.ShloMosaic

/-- `silu v = v * logistic v`. -/
def silu (v : EReal) : EReal := v * Ideal.logistic v

/-- The word 0x3F800000 is the real number 1. -/
theorem ofBits_one_f32 : Ideal.ofBits .f32 0x3F800000#32 = (1 : EReal) := by
  simp [Ideal.ofBits, Ideal.ieee, -EReal.coe_mul]
  norm_num

/-- `silu` as the host spells it: `v * (1 / (1 + exp (-v)))` with both ones written as their words. -/
theorem silu_host (v : EReal) :
    FloatOps.mulf (F := Ideal) (φ := .f32) v (FloatOps.hostDivf (F := Ideal) (φ := .f32) (Ideal.ofBits .f32 0x3F800000#32)
      (FloatOps.addf (F := Ideal) (φ := .f32) (Ideal.ofBits .f32 0x3F800000#32)
        (FloatOps.hostUnary (F := Ideal) (φ := .f32) .exp (FloatOps.hostNegf (F := Ideal) (φ := .f32) v)))) = silu v := by
  rw [ofBits_one_f32]
  rfl

/-- The squared length of a position difference. -/
def sqLen (r : Fin 3 → EReal) : EReal := ∑ c : Fin 3, r c * r c

/-- The edge network's hidden layer at column `j`. -/
def edgeHid (xr xc : Fin 128 → EReal) (d : EReal) (A B : Fin 128 → Fin 128 → EReal) (cw b1 : Fin 128 → EReal)
    (j : Fin 128) : EReal :=
  silu ((∑ k : Fin 128, xr k * A k j) + (∑ k : Fin 128, xc k * B k j) + d * cw j + b1 j)

/-- A dense layer followed by `silu`, at column `j`: the edge network's message from its hidden layer. -/
def denseSilu (h : Fin 128 → EReal) (W : Fin 128 → Fin 128 → EReal) (b : Fin 128 → EReal) (j : Fin 128) : EReal :=
  silu ((∑ k : Fin 128, h k * W k j) + b j)

/-- The coordinate gate of an edge from its message. -/
def edgeGate (msg : Fin 128 → EReal) (wc : Fin 128 → EReal) (bc : EReal) : EReal :=
  silu ((∑ j : Fin 128, msg j * wc j) + bc)

/-- The node network's inner layer at column `j`. -/
def nodeHid (x a : Fin 128 → EReal) (A B : Fin 128 → Fin 128 → EReal) (b1 : Fin 128 → EReal) (j : Fin 128) : EReal :=
  silu ((∑ k : Fin 128, x k * A k j) + (∑ k : Fin 128, a k * B k j) + b1 j)

/-- A dense layer, at column `j`: the node network's output from its inner layer. -/
def dense (h : Fin 128 → EReal) (W : Fin 128 → Fin 128 → EReal) (b : Fin 128 → EReal) (j : Fin 128) : EReal :=
  (∑ k : Fin 128, h k * W k j) + b j

/-- Row `k` of the first block of 128 rows of a matrix of 257 rows. -/
def r257a (k : Fin 128) : Fin 257 := ⟨k.val, by omega⟩
/-- Row `k` of the second block of 128 rows of a matrix of 257 rows. -/
def r257b (k : Fin 128) : Fin 257 := ⟨128 + k.val, by omega⟩
/-- The last row of a matrix of 257 rows. -/
def r257c : Fin 257 := ⟨256, by omega⟩
/-- Row `k` of the first block of 128 rows of a matrix of 256 rows. -/
def r256a (k : Fin 128) : Fin 256 := ⟨k.val, by omega⟩
/-- Row `k` of the second block of 128 rows of a matrix of 256 rows. -/
def r256b (k : Fin 128) : Fin 256 := ⟨128 + k.val, by omega⟩

/-- A sum over 256 = 128 + 128 terms is the sum over the first 128 plus the sum over the last 128. -/
theorem sum_split256 (f : Fin 256 → EReal) :
    ∑ k : Fin 256, f k = (∑ k : Fin 128, f (r256a k)) + (∑ k : Fin 128, f (r256b k)) :=
  Fin.sum_univ_add (M := EReal) (a := 128) (b := 128) f

/-- A sum over 257 = 128 + 128 + 1 terms: the first 128, the next 128, and the last one. -/
theorem sum_split257 (f : Fin 257 → EReal) :
    ∑ k : Fin 257, f k = (∑ k : Fin 128, f (r257a k)) + (∑ k : Fin 128, f (r257b k)) + f r257c := by
  have h := Fin.sum_univ_castSucc (M := EReal) (n := 256) f
  rw [h, sum_split256]
  rfl

end Cert.Egnn

end
-- ==== Proof.EdgePayload.lean ====
/-
  The edge kernel's two stored values, read at an entry of the block.

  A block of the edge kernel holds 4000 edges. Its stored message block is, at row `p` and column `q`, the edge
  network's message (RowMath's `denseSilu` over `edgeHid`) of row `p` of the three per-edge inputs; its stored shift
  block is, at row `p` and coordinate `c`, the position difference's coordinate times the gate of that message row.
  The three matrix products are sums over the contracted axis, the two row reductions sums along a row; the
  one-row operands (biases, the squared-length weights, the gate weights) are read at their row 0.
-/
import proofs.«128185_j38938173506036_2_alg».proof.Proof.Gen.KernelIdeal.Skeleton
import proofs.«128185_j38938173506036_2_alg».proof.Proof.LibPlainDot
import proofs.«128185_j38938173506036_2_alg».proof.Proof.LibRowReduceProducts
import proofs.«128185_j38938173506036_2_alg».proof.Proof.LibKeepdimsCols
import proofs.«128185_j38938173506036_2_alg».proof.Proof.RowMath
import Idealize.ShloMosaic.Lib.ValueLayout

open scoped BigOperators

noncomputable section

namespace Cert.Egnn.Edge

open Cert.KernelIdeal Cert.KernelIdeal.Gen Idealize.ShloMosaic Idealize.ShloMosaic.ValueIdx
open Cert.Egnn Cert.LibPlainDot Cert.LibRowReduceProducts Cert.LibKeepdimsCols

variable (v0 v2 : Vec Ideal S4000x128 .bf16) (v4 : Vec Ideal S4000x3 .f32)
  (v9 v12 : Vec Ideal S128x128 .f32) (v15 v17 : Vec Ideal S1x128 .f32)
  (v30 : Vec Ideal S128x128 .f32) (v32 v40 : Vec Ideal S1x128 .f32) (v42 : Vec Ideal S1x1 .f32)

/-- Row `p` of the block's hidden layer. -/
def hidRow (p : Fin 4000) : Fin 128 → EReal :=
  edgeHid (fun k => v0 (ix2 p k)) (fun k => v2 (ix2 p k)) (sqLen fun c => v4 (ix2 p c))
    (fun k j => v9 (ix2 k j)) (fun k j => v12 (ix2 k j)) (fun j => v15 (ix2 (0 : Fin 1) j)) (fun j => v17 (ix2 (0 : Fin 1) j))

/-- Row `p` of the block's messages. -/
def msgRow (p : Fin 4000) : Fin 128 → EReal :=
  denseSilu (hidRow v0 v2 v4 v9 v12 v15 v17 p) (fun k j => v30 (ix2 k j)) (fun j => v32 (ix2 (0 : Fin 1) j))

/-- The squared length of row `p` of the position differences, as the kernel takes it: a row sum of squares. -/
theorem sq_apply (p : Fin 4000) (u : Fin 1) :
    shapeCast S4000x1 (multiReduction (F := Ideal) .add [1] S4000 (mulf (k0_pay4 v4) (k0_pay4 v4)) 0x00000000#32
      reduces_S4000x3_S4000 (.inl rfl) rfl) shapeCasts_S4000_S4000x1 (ix2 p u) = sqLen fun c => v4 (ix2 p c) := by
  refine (shapeCast_a_a1_apply _ _ p u).trans ?_
  refine (rowSum_apply _ _ _ _ p).trans ?_
  unfold sqLen k0_pay4
  refine Finset.sum_congr rfl fun c _ => ?_
  show shapeCast S4000x3 v4 _ (ix2 p c) * shapeCast S4000x3 v4 _ (ix2 p c) = _
  rw [shapeCast_self]

/-- The second matrix product's result at `(p, q)`: the hidden row against column `q` of the second weight matrix. -/
theorem pay5_apply (p : Fin 4000) (q : Fin 128) :
    k0_pay5 (F := Ideal) v0 v2 v4 v9 v12 v15 v17 v30 (ix2 p q)
      = ∑ k : Fin 128, hidRow v0 v2 v4 v9 v12 v15 v17 p k * v30 (ix2 k q) := by
  unfold k0_pay5
  refine (matmul_zero_plain none _ _ p q).trans ?_
  refine Finset.sum_congr rfl fun k _ => ?_
  refine congrArg (· * v30 (ix2 k q)) ?_
  unfold hidRow edgeHid
  refine congrArg silu ?_
  refine congrArg₂ (· + ·) (congrArg₂ (· + ·) (congrArg₂ (· + ·) ?_ ?_) ?_) ?_
  · refine (matmul_zero_plain none _ _ p k).trans (Finset.sum_congr rfl fun k' _ => ?_)
    show shapeCast S4000x128 v0 _ (ix2 p k') * shapeCast S128x128 v9 _ (ix2 k' k) = _
    rw [shapeCast_self, shapeCast_self]
  · refine (matmul_zero_plain none _ _ p k).trans (Finset.sum_congr rfl fun k' _ => ?_)
    show shapeCast S4000x128 v2 _ (ix2 p k') * shapeCast S128x128 v12 _ (ix2 k' k) = _
    rw [shapeCast_self, shapeCast_self]
  · refine congrArg₂ (· * ·) ?_ ?_
    · refine (broadcastTo_a1_ab_apply _ _ p k).trans ?_
      exact sq_apply v4 p 0
    · refine (broadcastTo_1b_ab_apply _ _ p k).trans ?_
      rw [shapeCast_self]
  · refine (broadcastTo_1b_ab_apply _ _ p k).trans ?_
    rw [shapeCast_self]

/-- The message before it is narrowed for the store, at `(p, q)`. -/
theorem pay1_apply (p : Fin 4000) (q : Fin 128) :
    k0_pay1 (F := Ideal) (k0_pay5 v0 v2 v4 v9 v12 v15 v17 v30) (k0_pay6 v32) (ix2 p q)
      = msgRow v0 v2 v4 v9 v12 v15 v17 v30 v32 p q := by
  unfold k0_pay1 msgRow denseSilu
  refine congrArg silu ?_
  refine congrArg₂ (· + ·) (pay5_apply v0 v2 v4 v9 v12 v15 v17 v30 p q) ?_
  unfold k0_pay6
  refine (broadcastTo_1b_ab_apply _ _ p q).trans ?_
  rw [shapeCast_self]

/-- The stored message block at `(p, q)`: narrowing is the identity on extended reals. -/
theorem pay3_apply (p : Fin 4000) (q : Fin 128) :
    k0_pay3 (F := Ideal) (k0_pay5 v0 v2 v4 v9 v12 v15 v17 v30) (k0_pay6 v32) (ix2 p q)
      = msgRow v0 v2 v4 v9 v12 v15 v17 v30 v32 p q :=
  pay1_apply v0 v2 v4 v9 v12 v15 v17 v30 v32 p q

/-- The stored shift block at `(p, c)`: the position difference's coordinate times the gate of the message row. -/
theorem pay2_apply (p : Fin 4000) (c : Fin 3) :
    k0_pay2 (F := Ideal) (k0_pay4 v4) (k0_pay5 v0 v2 v4 v9 v12 v15 v17 v30) (k0_pay6 v32) v40 v42 (ix2 p c)
      = v4 (ix2 p c) * edgeGate (msgRow v0 v2 v4 v9 v12 v15 v17 v30 v32 p) (fun j => v40 (ix2 (0 : Fin 1) j))
          (v42 (ix2 (0 : Fin 1) (0 : Fin 1))) := by
  unfold k0_pay2
  refine congrArg₂ (· * ·) ?_ ?_
  · unfold k0_pay4
    rw [shapeCast_self]
  · refine (broadcastTo_a1_ab_apply _ _ p c).trans ?_
    unfold edgeGate
    refine congrArg silu ?_
    refine congrArg₂ (· + ·) ?_ ?_
    · refine (shapeCast_a_a1_apply _ _ p 0).trans ?_
      refine (rowSum_apply _ _ _ _ p).trans ?_
      refine Finset.sum_congr rfl fun j _ => ?_
      refine congrArg₂ (· * ·) (pay1_apply v0 v2 v4 v9 v12 v15 v17 v30 v32 p j) ?_
      refine (broadcastTo_1b_ab_apply _ _ p j).trans ?_
      rw [shapeCast_self]
    · refine (broadcastTo_1b_ab_apply _ _ p (0 : Fin 1)).trans ?_
      rw [shapeCast_self]

end Cert.Egnn.Edge

end
-- ==== Proof.ArraySpec.lean ====
/-
  The layer's four arrays as functions of the arrays they are computed from, entry by entry.

  `msgArr`   : the message of every edge, an [800000, 128] array — row `e` is RowMath's message row of row `e` of the
               gathered feature rows `XR`, `XC` and of the position differences `RIJ`;
  `shiftArr` : the position shift of every edge, [800000, 3] — the position difference times the gate of the message row;
  `nodeArr`  : the new features of every node, [50000, 128] — the node network of the node's features and of its summed
               incoming messages;
  `posArr`   : the new positions, [50000, 3] — the position plus a fixed step (the single-precision number nearest
               to 0.01, kept as its binary word on both sides) times the summed shifts.

  The weights enter as functions of their row and column, so that either program's way of cutting one weight matrix
  into pieces (a slice outside the kernel, a concatenated contraction axis in the reference) is one instance.
-/
import Idealize.ShloMosaic.Lib.ValueIdx
import proofs.«128185_j38938173506036_2_alg».proof.Proof.RowMath

noncomputable section

namespace Cert.Egnn

open Idealize.ShloMosaic Idealize.ShloMosaic.ValueIdx

/-- The message of every edge. -/
def msgArr (XR XC : (⟨2, ![800000, 128]⟩ : Shape).Idx → EReal) (RIJ : (⟨2, ![800000, 3]⟩ : Shape).Idx → EReal)
    (A B : Fin 128 → Fin 128 → EReal) (cw b1 : Fin 128 → EReal) (W2 : Fin 128 → Fin 128 → EReal) (b2 : Fin 128 → EReal) :
    (⟨2, ![800000, 128]⟩ : Shape).Idx → EReal :=
  fun i => denseSilu (edgeHid (fun k => XR (ix2 (i 0) k)) (fun k => XC (ix2 (i 0) k)) (sqLen fun c => RIJ (ix2 (i 0) c))
    A B cw b1) W2 b2 (i 1)

/-- The position shift of every edge, from the messages. -/
def shiftArr (M : (⟨2, ![800000, 128]⟩ : Shape).Idx → EReal) (RIJ : (⟨2, ![800000, 3]⟩ : Shape).Idx → EReal)
    (wc : Fin 128 → EReal) (bc : EReal) : (⟨2, ![800000, 3]⟩ : Shape).Idx → EReal :=
  fun i => RIJ i * edgeGate (fun j => M (ix2 (i 0) j)) wc bc

/-- The new features of every node. -/
def nodeArr (X AGG : (⟨2, ![50000, 128]⟩ : Shape).Idx → EReal) (A B : Fin 128 → Fin 128 → EReal) (b1 : Fin 128 → EReal)
    (W2 : Fin 128 → Fin 128 → EReal) (b2 : Fin 128 → EReal) : (⟨2, ![50000, 128]⟩ : Shape).Idx → EReal :=
  fun i => dense (nodeHid (fun k => X (ix2 (i 0) k)) (fun k => AGG (ix2 (i 0) k)) A B b1) W2 b2 (i 1)

/-- The new positions. -/
def posArr (POS DELTA : (⟨2, ![50000, 3]⟩ : Shape).Idx → EReal) : (⟨2, ![50000, 3]⟩ : Shape).Idx → EReal :=
  fun i => POS i + Ideal.ofBits .f32 0x3C23D70A#32 * DELTA i

end Cert.Egnn

end
-- ==== Proof.EdgeBlocks.lean ====
/-
  The edge kernel's region: its two output arrays after all 200 grid points, as functions of the arrays the region
  finds at its entry.

  Point `t` of the grid reads rows `4000 t .. 4000 t + 3999` of the three per-edge inputs and the whole of every weight
  array, and writes back rows `4000 t ..` of the two outputs; the 200 blocks tile the 800000 rows. So the message array
  ends as the layer's message array (ArraySpec's `msgArr`) of the entry arrays, and the shift array as its
  `shiftArr`. The entry contents `V` stay a variable here: which host operations produced them is another module's
  business.
-/
import proofs.«128185_j38938173506036_2_alg».proof.Proof.KernelIdealFrameP
import proofs.«128185_j38938173506036_2_alg».proof.Proof.EdgePayload
import proofs.«128185_j38938173506036_2_alg».proof.Proof.ArraySpec
import Idealize.ShloMosaic.Lib.Pipeline.Value

set_option maxRecDepth 16384

open scoped BigOperators

noncomputable section

namespace Cert.Egnn.Edge

open Cert.KernelIdeal Cert.KernelIdeal.Gen Cert.KernelIdeal.GenP Idealize.ShloMosaic Idealize.ShloMosaic.ValueIdx Idealize.ShloMosaic.TcCoe
open Idealize.SL.Sem Cert.Egnn

variable (V : (c : Dev nD) → (b : Ref sig .tc) → Buf (Elt Ideal) ((c : Thread nD τ).loc b))

theorem hz : (![0, 0] : Fin 2 → Nat) = fun _ => 0 := funext fun a => by fin_cases a <;> rfl

/-- Row `p` of point `t`'s block is row `4000 t + p` of the array. -/
def brow (t : Fin cfg0.N) (p : Fin 4000) : Fin 800000 :=
  ⟨t.val * 4000 + p.val, by have ht : t.val < 200 := t.isLt; have := p.isLt; omega⟩

/-- The printed index maps, decided over the grid: a window over rows is at block `t` of its array at point `t`, a weight
    window always at its one block. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = t.val
    ∧ win0_11.index t (1 : Fin 2) = 0
    ∧ win0_12.index t (0 : Fin 2) = t.val
    ∧ win0_12.index t (1 : Fin 2) = 0 :=
  (by decide +kernel : ∀ t : Fin grid0.N, _)

/-- Window 0's block at point `t`, row `p`: row `t * 4000 + p` of its array. -/
theorem blk0 (c : Dev nD) (t : Fin cfg0.N) (p : Fin 4000) (k : Fin 128) :
    iblk0 V c 0 t (ix2 p k) = V c main_v11 (ix2 (brow t p) k) := by
  show V c main_v11 (((cfg0.win 0).blk t).view.emb (ix2 p k)) = V c main_v11 (ix2 (brow t p) k)
  refine congrArg _ (funext fun a => Fin.ext ?_)
  obtain ⟨e0a, e0b, e1a, e1b, e2a, e2b, e3a, e3b, e4a, e4b, e5a, e5b, e6a, e6b, e7a, e7b, e8a, e8b, e9a, e9b, e10a, e10b, e11a, e11b, e12a, e12b⟩ := idx_facts t
  match a with
  | ⟨0, _⟩ => show win0_0.index t (0 : Fin 2) * 4000 + 1 * p.val = t.val * 4000 + p.val; rw [e0a]; omega
  | ⟨1, _⟩ => show win0_0.index t (1 : Fin 2) * 128 + 1 * k.val = k.val; rw [e0b]; omega

/-- Window 1's block at point `t`, row `p`: row `t * 4000 + p` of its array. -/
theorem blk1 (c : Dev nD) (t : Fin cfg0.N) (p : Fin 4000) (k : Fin 128) :
    iblk0 V c 1 t (ix2 p k) = V c main_v18 (ix2 (brow t p) k) := by
  show V c main_v18 (((cfg0.win 1).blk t).view.emb (ix2 p k)) = V c main_v18 (ix2 (brow t p) k)
  refine congrArg _ (funext fun a => Fin.ext ?_)
  obtain ⟨e0a, e0b, e1a, e1b, e2a, e2b, e3a, e3b, e4a, e4b, e5a, e5b, e6a, e6b, e7a, e7b, e8a, e8b, e9a, e9b, e10a, e10b, e11a, e11b, e12a, e12b⟩ := idx_facts t
  match a with
  | ⟨0, _⟩ => show win0_1.index t (0 : Fin 2) * 4000 + 1 * p.val = t.val * 4000 + p.val; rw [e1a]; omega
  | ⟨1, _⟩ => show win0_1.index t (1 : Fin 2) * 128 + 1 * k.val = k.val; rw [e1b]; omega

/-- Window 2's block at point `t`, row `p`: row `t * 4000 + p` of its array. -/
theorem blk2 (c : Dev nD) (t : Fin cfg0.N) (p : Fin 4000) (k : Fin 3) :
    iblk0 V c 2 t (ix2 p k) = V c main_v33 (ix2 (brow t p) k) := by
  show V c main_v33 (((cfg0.win 2).blk t).view.emb (ix2 p k)) = V c main_v33 (ix2 (brow t p) k)
  refine congrArg _ (funext fun a => Fin.ext ?_)
  obtain ⟨e0a, e0b, e1a, e1b, e2a, e2b, e3a, e3b, e4a, e4b, e5a, e5b, e6a, e6b, e7a, e7b, e8a, e8b, e9a, e9b, e10a, e10b, e11a, e11b, e12a, e12b⟩ := idx_facts t
  match a with
  | ⟨0, _⟩ => show win0_2.index t (0 : Fin 2) * 4000 + 1 * p.val = t.val * 4000 + p.val; rw [e2a]; omega
  | ⟨1, _⟩ => show win0_2.index t (1 : Fin 2) * 3 + 1 * k.val = k.val; rw [e2b]; omega

/-- Window 3's block at every point is its whole array. -/
theorem blk3 (c : Dev nD) (t : Fin cfg0.N) : iblk0 V c 3 t = V c main_v34 := by
  funext y
  show V c main_v34 (((cfg0.win 3).blk t).view.emb y) = V c main_v34 y
  refine congrArg _ (funext fun a => Fin.ext ?_)
  obtain ⟨e0a, e0b, e1a, e1b, e2a, e2b, e3a, e3b, e4a, e4b, e5a, e5b, e6a, e6b, e7a, e7b, e8a, e8b, e9a, e9b, e10a, e10b, e11a, e11b, e12a, e12b⟩ := idx_facts t
  match a with
  | ⟨0, _⟩ => show win0_3.index t (0 : Fin 2) * 128 + 1 * (y 0).val = (y 0).val; rw [e3a]; omega
  | ⟨1, _⟩ => show win0_3.index t (1 : Fin 2) * 128 + 1 * (y 1).val = (y 1).val; rw [e3b]; omega

/-- Window 4's block at every point is its whole array. -/
theorem blk4 (c : Dev nD) (t : Fin cfg0.N) : iblk0 V c 4 t = V c main_v35 := by
  funext y
  show V c main_v35 (((cfg0.win 4).blk t).view.emb y) = V c main_v35 y
  refine congrArg _ (funext fun a => Fin.ext ?_)
  obtain ⟨e0a, e0b, e1a, e1b, e2a, e2b, e3a, e3b, e4a, e4b, e5a, e5b, e6a, e6b, e7a, e7b, e8a, e8b, e9a, e9b, e10a, e10b, e11a, e11b, e12a, e12b⟩ := idx_facts t
  match a with
  | ⟨0, _⟩ => show win0_4.index t (0 : Fin 2) * 128 + 1 * (y 0).val = (y 0).val; rw [e4a]; omega
  | ⟨1, _⟩ => show win0_4.index t (1 : Fin 2) * 128 + 1 * (y 1).val = (y 1).val; rw [e4b]; omega

/-- Window 5's block at every point is its whole array. -/
theorem blk5 (c : Dev nD) (t : Fin cfg0.N) : iblk0 V c 5 t = V c main_v36 := by
  funext y
  show V c main_v36 (((cfg0.win 5).blk t).view.emb y) = V c main_v36 y
  refine congrArg _ (funext fun a => Fin.ext ?_)
  obtain ⟨e0a, e0b, e1a, e1b, e2a, e2b, e3a, e3b, e4a, e4b, e5a, e5b, e6a, e6b, e7a, e7b, e8a, e8b, e9a, e9b, e10a, e10b, e11a, e11b, e12a, e12b⟩ := idx_facts t
  match a with
  | ⟨0, _⟩ => show win0_5.index t (0 : Fin 2) * 1 + 1 * (y 0).val = (y 0).val; rw [e5a]; omega
  | ⟨1, _⟩ => show win0_5.index t (1 : Fin 2) * 128 + 1 * (y 1).val = (y 1).val; rw [e5b]; omega

/-- Window 6's block at every point is its whole array. -/
theorem blk6 (c : Dev nD) (t : Fin cfg0.N) : iblk0 V c 6 t = V c main_v37 := by
  funext y
  show V c main_v37 (((cfg0.win 6).blk t).view.emb y) = V c main_v37 y
  refine congrArg _ (funext fun a => Fin.ext ?_)
  obtain ⟨e0a, e0b, e1a, e1b, e2a, e2b, e3a, e3b, e4a, e4b, e5a, e5b, e6a, e6b, e7a, e7b, e8a, e8b, e9a, e9b, e10a, e10b, e11a, e11b, e12a, e12b⟩ := idx_facts t
  match a with
  | ⟨0, _⟩ => show win0_6.index t (0 : Fin 2) * 1 + 1 * (y 0).val = (y 0).val; rw [e6a]; omega
  | ⟨1, _⟩ => show win0_6.index t (1 : Fin 2) * 128 + 1 * (y 1).val = (y 1).val; rw [e6b]; omega

/-- Window 7's block at every point is its whole array. -/
theorem blk7 (c : Dev nD) (t : Fin cfg0.N) : iblk0 V c 7 t = V c main_arg4 := by
  funext y
  show V c main_arg4 (((cfg0.win 7).blk t).view.emb y) = V c main_arg4 y
  refine congrArg _ (funext fun a => Fin.ext ?_)
  obtain ⟨e0a, e0b, e1a, e1b, e2a, e2b, e3a, e3b, e4a, e4b, e5a, e5b, e6a, e6b, e7a, e7b, e8a, e8b, e9a, e9b, e10a, e10b, e11a, e11b, e12a, e12b⟩ := idx_facts t
  match a with
  | ⟨0, _⟩ => show win0_7.index t (0 : Fin 2) * 128 + 1 * (y 0).val = (y 0).val; rw [e7a]; omega
  | ⟨1, _⟩ => show win0_7.index t (1 : Fin 2) * 128 + 1 * (y 1).val = (y 1).val; rw [e7b]; omega

/-- Window 8's block at every point is its whole array. -/
theorem blk8 (c : Dev nD) (t : Fin cfg0.N) : iblk0 V c 8 t = V c main_v38 := by
  funext y
  show V c main_v38 (((cfg0.win 8).blk t).view.emb y) = V c main_v38 y
  refine congrArg _ (funext fun a => Fin.ext ?_)
  obtain ⟨e0a, e0b, e1a, e1b, e2a, e2b, e3a, e3b, e4a, e4b, e5a, e5b, e6a, e6b, e7a, e7b, e8a, e8b, e9a, e9b, e10a, e10b, e11a, e11b, e12a, e12b⟩ := idx_facts t
  match a with
  | ⟨0, _⟩ => show win0_8.index t (0 : Fin 2) * 1 + 1 * (y 0).val = (y 0).val; rw [e8a]; omega
  | ⟨1, _⟩ => show win0_8.index t (1 : Fin 2) * 128 + 1 * (y 1).val = (y 1).val; rw [e8b]; omega

/-- Window 9's block at every point is its whole array. -/
theorem blk9 (c : Dev nD) (t : Fin cfg0.N) : iblk0 V c 9 t = V c main_v39 := by
  funext y
  show V c main_v39 (((cfg0.win 9).blk t).view.emb y) = V c main_v39 y
  refine congrArg _ (funext fun a => Fin.ext ?_)
  obtain ⟨e0a, e0b, e1a, e1b, e2a, e2b, e3a, e3b, e4a, e4b, e5a, e5b, e6a, e6b, e7a, e7b, e8a, e8b, e9a, e9b, e10a, e10b, e11a, e11b, e12a, e12b⟩ := idx_facts t
  match a with
  | ⟨0, _⟩ => show win0_9.index t (0 : Fin 2) * 1 + 1 * (y 0).val = (y 0).val; rw [e9a]; omega
  | ⟨1, _⟩ => show win0_9.index t (1 : Fin 2) * 128 + 1 * (y 1).val = (y 1).val; rw [e9b]; omega

/-- Window 10's block at every point is its whole array. -/
theorem blk10 (c : Dev nD) (t : Fin cfg0.N) : iblk0 V c 10 t = V c main_v40 := by
  funext y
  show V c main_v40 (((cfg0.win 10).blk t).view.emb y) = V c main_v40 y
  refine congrArg _ (funext fun a => Fin.ext ?_)
  obtain ⟨e0a, e0b, e1a, e1b, e2a, e2b, e3a, e3b, e4a, e4b, e5a, e5b, e6a, e6b, e7a, e7b, e8a, e8b, e9a, e9b, e10a, e10b, e11a, e11b, e12a, e12b⟩ := idx_facts t
  match a with
  | ⟨0, _⟩ => show win0_10.index t (0 : Fin 2) * 1 + 1 * (y 0).val = (y 0).val; rw [e10a]; omega
  | ⟨1, _⟩ => show win0_10.index t (1 : Fin 2) * 1 + 1 * (y 1).val = (y 1).val; rw [e10b]; omega

/-- Output window 11's block at point `t` sits at rows `t * 4000 ..` of its array. -/
theorem emb11 (t : Fin cfg0.N) (p : Fin 4000) (k : Fin 128) :
    ((cfg0.win 11).blk t).view.emb (ix2 p k) = ix2 (brow t p) k := by
  refine funext fun a => Fin.ext ?_
  obtain ⟨e0a, e0b, e1a, e1b, e2a, e2b, e3a, e3b, e4a, e4b, e5a, e5b, e6a, e6b, e7a, e7b, e8a, e8b, e9a, e9b, e10a, e10b, e11a, e11b, e12a, e12b⟩ := idx_facts t
  match a with
  | ⟨0, _⟩ => show win0_11.index t (0 : Fin 2) * 4000 + 1 * p.val = t.val * 4000 + p.val; rw [e11a]; omega
  | ⟨1, _⟩ => show win0_11.index t (1 : Fin 2) * 128 + 1 * k.val = k.val; rw [e11b]; omega

/-- An index of the array is in point `t`'s block of window 11 iff each coordinate is in the block's range. -/
theorem mem_blk11 (t : Fin cfg0.N) (i : S800000x128.Idx) :
    i ∈ ((cfg0.win 11).blk t).view.set ↔ ∀ a : Fin 2, win0_11.index t a * S4000x128.size a ≤ (i a).val ∧ (i a).val < win0_11.index t a * S4000x128.size a + S4000x128.size a := by
  show i ∈ ((View.whole main_v41_0).slice (win0_11.rect t)).set ↔ _
  rw [View.set_slice_whole, Rect.mem_set_unit]
  exact Iff.rfl

/-- The blocks of window 11 cover its array: row `r` is in the block of point `r / 4000`. -/
theorem cover11 (i : S800000x128.Idx) :
    ∃ t : Fin cfg0.N, (cfg0.win 11).flush t = true ∧ i ∈ ((cfg0.win 11).blk t).view.set := by
  have hi0 : (i 0).val < 800000 := (i 0).isLt
  have hi1 : (i 1).val < 128 := (i 1).isLt
  refine ⟨⟨(i 0).val / 4000, by show (i 0).val / 4000 < 200; omega⟩, flush0_11 _, ?_⟩
  rw [mem_blk11]
  obtain ⟨e0a, e0b, e1a, e1b, e2a, e2b, e3a, e3b, e4a, e4b, e5a, e5b, e6a, e6b, e7a, e7b, e8a, e8b, e9a, e9b, e10a, e10b, e11a, e11b, e12a, e12b⟩ := idx_facts ⟨(i 0).val / 4000, by show (i 0).val / 4000 < 200; omega⟩
  intro a
  match a with
  | ⟨0, _⟩ =>
    show win0_11.index _ (0 : Fin 2) * 4000 ≤ (i 0).val ∧ (i 0).val < win0_11.index _ (0 : Fin 2) * 4000 + 4000
    rw [e11a]
    show (i 0).val / 4000 * 4000 ≤ (i 0).val ∧ (i 0).val < (i 0).val / 4000 * 4000 + 4000
    omega
  | ⟨1, _⟩ =>
    show win0_11.index _ (1 : Fin 2) * 128 ≤ (i 1).val ∧ (i 1).val < win0_11.index _ (1 : Fin 2) * 128 + 128
    rw [e11b]
    omega

/-- Output window 12's block at point `t` sits at rows `t * 4000 ..` of its array. -/
theorem emb12 (t : Fin cfg0.N) (p : Fin 4000) (k : Fin 3) :
    ((cfg0.win 12).blk t).view.emb (ix2 p k) = ix2 (brow t p) k := by
  refine funext fun a => Fin.ext ?_
  obtain ⟨e0a, e0b, e1a, e1b, e2a, e2b, e3a, e3b, e4a, e4b, e5a, e5b, e6a, e6b, e7a, e7b, e8a, e8b, e9a, e9b, e10a, e10b, e11a, e11b, e12a, e12b⟩ := idx_facts t
  match a with
  | ⟨0, _⟩ => show win0_12.index t (0 : Fin 2) * 4000 + 1 * p.val = t.val * 4000 + p.val; rw [e12a]; omega
  | ⟨1, _⟩ => show win0_12.index t (1 : Fin 2) * 3 + 1 * k.val = k.val; rw [e12b]; omega

/-- An index of the array is in point `t`'s block of window 12 iff each coordinate is in the block's range. -/
theorem mem_blk12 (t : Fin cfg0.N) (i : S800000x3.Idx) :
    i ∈ ((cfg0.win 12).blk t).view.set ↔ ∀ a : Fin 2, win0_12.index t a * S4000x3.size a ≤ (i a).val ∧ (i a).val < win0_12.index t a * S4000x3.size a + S4000x3.size a := by
  show i ∈ ((View.whole main_v41_1).slice (win0_12.rect t)).set ↔ _
  rw [View.set_slice_whole, Rect.mem_set_unit]
  exact Iff.rfl

/-- The blocks of window 12 cover its array: row `r` is in the block of point `r / 4000`. -/
theorem cover12 (i : S800000x3.Idx) :
    ∃ t : Fin cfg0.N, (cfg0.win 12).flush t = true ∧ i ∈ ((cfg0.win 12).blk t).view.set := by
  have hi0 : (i 0).val < 800000 := (i 0).isLt
  have hi1 : (i 1).val < 3 := (i 1).isLt
  refine ⟨⟨(i 0).val / 4000, by show (i 0).val / 4000 < 200; omega⟩, flush0_12 _, ?_⟩
  rw [mem_blk12]
  obtain ⟨e0a, e0b, e1a, e1b, e2a, e2b, e3a, e3b, e4a, e4b, e5a, e5b, e6a, e6b, e7a, e7b, e8a, e8b, e9a, e9b, e10a, e10b, e11a, e11b, e12a, e12b⟩ := idx_facts ⟨(i 0).val / 4000, by show (i 0).val / 4000 < 200; omega⟩
  intro a
  match a with
  | ⟨0, _⟩ =>
    show win0_12.index _ (0 : Fin 2) * 4000 ≤ (i 0).val ∧ (i 0).val < win0_12.index _ (0 : Fin 2) * 4000 + 4000
    rw [e12a]
    show (i 0).val / 4000 * 4000 ≤ (i 0).val ∧ (i 0).val < (i 0).val / 4000 * 4000 + 4000
    omega
  | ⟨1, _⟩ =>
    show win0_12.index _ (1 : Fin 2) * 3 ≤ (i 1).val ∧ (i 1).val < win0_12.index _ (1 : Fin 2) * 3 + 3
    rw [e12b]
    omega

/-- The message array the region leaves, from the arrays it finds. -/
def msgOf (c : Dev nD) : S800000x128.Idx → EReal :=
  msgArr (V c main_v11) (V c main_v18) (V c main_v33) (fun k j => V c main_v34 (ix2 k j)) (fun k j => V c main_v35 (ix2 k j))
    (fun j => V c main_v36 (ix2 (0 : Fin 1) j)) (fun j => V c main_v37 (ix2 (0 : Fin 1) j)) (fun k j => V c main_arg4 (ix2 k j))
    (fun j => V c main_v38 (ix2 (0 : Fin 1) j))

/-- The shift array the region leaves, from the arrays it finds. -/
def shiftOf (c : Dev nD) : S800000x3.Idx → EReal :=
  shiftArr (msgOf V c) (V c main_v33) (fun j => V c main_v39 (ix2 (0 : Fin 1) j)) (V c main_v40 (ix2 (0 : Fin 1) (0 : Fin 1)))

/-- Row `p` of the block's messages at point `t` is row `4000 t + p` of the message array. -/
theorem msgRow_blk (c : Dev nD) (t : Fin cfg0.N) (p : Fin 4000) :
    msgRow (iblk0 V c 0 t) (iblk0 V c 1 t) (iblk0 V c 2 t) (iblk0 V c 3 t) (iblk0 V c 4 t) (iblk0 V c 5 t) (iblk0 V c 6 t)
      (iblk0 V c 7 t) (iblk0 V c 8 t) p = fun j => msgOf V c (ix2 (brow t p) j) := by
  funext j
  unfold msgRow hidRow msgOf msgArr
  simp only [blk0, blk1, blk2, blk3, blk4, blk5, blk6, blk7, blk8]

/-- What point `t` writes back to the message array is block `t` of the layer's message array. -/
theorem flushed11_eq (c : Dev nD) (t : Fin cfg0.N) :
    (dat0 V c).flushed 11 t = ((cfg0.win 11).blk t).view.read (Elt Ideal) (msgOf V c) := by
  show (cfg0.win 11).cut (grid0.coords t) ((dat0 V c).after 11 t) = _
  rw [after0_11]
  unfold out0_11
  rw [View.canon_unit_zero hz]
  simp only [View.ld_unit_zero (S := S4000x128) hz, View.ld_unit_zero (S := S4000x3) hz, View.ld_unit_zero (S := S128x128) hz,
    View.ld_unit_zero (S := S1x128) hz]
  funext j
  obtain ⟨p, q, rfl⟩ : ∃ (p : Fin 4000) (q : Fin 128), j = ix2 p q := ⟨j 0, j 1, eq_ix2 j⟩
  show k0_pay3 (k0_pay5 (iblk0 V c 0 t) (iblk0 V c 1 t) (iblk0 V c 2 t) (iblk0 V c 3 t) (iblk0 V c 4 t) (iblk0 V c 5 t)
      (iblk0 V c 6 t) (iblk0 V c 7 t)) (k0_pay6 (iblk0 V c 8 t)) (ix2 p q)
    = msgOf V c (((cfg0.win 11).blk t).view.emb (ix2 p q))
  rw [emb11]
  refine (pay3_apply (iblk0 V c 0 t) (iblk0 V c 1 t) (iblk0 V c 2 t) (iblk0 V c 3 t) (iblk0 V c 4 t) (iblk0 V c 5 t)
    (iblk0 V c 6 t) (iblk0 V c 7 t) (iblk0 V c 8 t) p q).trans ?_
  exact congrFun (msgRow_blk V c t p) q

/-- What point `t` writes back to the shift array is block `t` of the layer's shift array. -/
theorem flushed12_eq (c : Dev nD) (t : Fin cfg0.N) :
    (dat0 V c).flushed 12 t = ((cfg0.win 12).blk t).view.read (Elt Ideal) (shiftOf V c) := by
  show (cfg0.win 12).cut (grid0.coords t) ((dat0 V c).after 12 t) = _
  rw [after0_12]
  unfold out0_12
  rw [View.canon_unit_zero hz]
  simp only [View.ld_unit_zero (S := S4000x128) hz, View.ld_unit_zero (S := S4000x3) hz, View.ld_unit_zero (S := S128x128) hz,
    View.ld_unit_zero (S := S1x128) hz, View.ld_unit_zero (S := S1x1) hz]
  funext j
  obtain ⟨p, q, rfl⟩ : ∃ (p : Fin 4000) (q : Fin 3), j = ix2 p q := ⟨j 0, j 1, eq_ix2 j⟩
  show k0_pay2 (k0_pay4 (iblk0 V c 2 t)) (k0_pay5 (iblk0 V c 0 t) (iblk0 V c 1 t) (iblk0 V c 2 t) (iblk0 V c 3 t) (iblk0 V c 4 t)
      (iblk0 V c 5 t) (iblk0 V c 6 t) (iblk0 V c 7 t)) (k0_pay6 (iblk0 V c 8 t)) (iblk0 V c 9 t) (iblk0 V c 10 t) (ix2 p q)
    = shiftOf V c (((cfg0.win 12).blk t).view.emb (ix2 p q))
  rw [emb12]
  refine (pay2_apply (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) (iblk0 V c 10 t) p q).trans ?_
  rw [msgRow_blk V c t p, blk2, blk9, blk10]
  rfl

/-- The message array after the region. -/
theorem final11 (c : Dev nD) : (dat0 V c).arrAt 11 cfg0.N = msgOf V c :=
  (dat0 V c).arrAt_eq_of_cover 11 (msgOf V c) (fun t _ => flushed11_eq V c t) cover11

/-- The shift array after the region. -/
theorem final12 (c : Dev nD) : (dat0 V c).arrAt 12 cfg0.N = shiftOf V c :=
  (dat0 V c).arrAt_eq_of_cover 12 (shiftOf V c) (fun t _ => flushed12_eq V c t) cover12

end Cert.Egnn.Edge

end
-- ==== Proof.NodePayload.lean ====
/-
  The node kernel's two stored values, read at an entry of the block.

  A block of the node kernel holds 2000 nodes. Its stored feature block is, at row `p` and column `q`, the node
  network's output (RowMath's `dense` over `nodeHid`) of row `p` of the features and of the summed messages; its
  stored position block is the position plus the fixed step times the summed shift, entry by entry.
-/
import proofs.«128185_j38938173506036_2_alg».proof.Proof.Gen.KernelIdeal.Skeleton
import proofs.«128185_j38938173506036_2_alg».proof.Proof.LibPlainDot
import proofs.«128185_j38938173506036_2_alg».proof.Proof.RowMath
import Idealize.ShloMosaic.Lib.ValueLayout

open scoped BigOperators

noncomputable section

namespace Cert.Egnn.Node

open Cert.KernelIdeal Cert.KernelIdeal.Gen Idealize.ShloMosaic Idealize.ShloMosaic.ValueIdx
open Cert.Egnn Cert.LibPlainDot

variable (v0 v2 : Vec Ideal S2000x128 .f32) (v5 v8 : Vec Ideal S128x128 .f32)
  (v11 : Vec Ideal S1x128 .f32) (v20 : Vec Ideal S128x128 .f32) (v22 : Vec Ideal S1x128 .f32)
  (v29 v30 : Vec Ideal S2000x3 .f32)

/-- The stored feature block at `(p, q)`. -/
theorem pay2_apply (p : Fin 2000) (q : Fin 128) :
    k1_pay2 (F := Ideal) v0 v2 v5 v8 v11 v20 v22 (ix2 p q)
      = dense (nodeHid (fun k => v0 (ix2 p k)) (fun k => v2 (ix2 p k)) (fun k j => v5 (ix2 k j)) (fun k j => v8 (ix2 k j))
          (fun j => v11 (ix2 (0 : Fin 1) j))) (fun k j => v20 (ix2 k j)) (fun j => v22 (ix2 (0 : Fin 1) j)) q := by
  unfold k1_pay2 dense
  refine congrArg₂ (· + ·) ?_ ?_
  · refine (matmul_zero_plain none _ _ p q).trans (Finset.sum_congr rfl fun k _ => congrArg (· * v20 (ix2 k q)) ?_)
    unfold nodeHid
    refine congrArg silu ?_
    refine congrArg₂ (· + ·) (congrArg₂ (· + ·) ?_ ?_) ?_
    · refine (matmul_zero_plain none _ _ p k).trans (Finset.sum_congr rfl fun k' _ => ?_)
      show v0 (ix2 p k') * shapeCast S128x128 v5 _ (ix2 k' k) = _
      rw [shapeCast_self]
    · refine (matmul_zero_plain none _ _ p k).trans (Finset.sum_congr rfl fun k' _ => ?_)
      show shapeCast S2000x128 v2 _ (ix2 p k') * shapeCast S128x128 v8 _ (ix2 k' k) = _
      rw [shapeCast_self, shapeCast_self]
    · refine (broadcastTo_1b_ab_apply _ _ p k).trans ?_
      rw [shapeCast_self]
  · refine (broadcastTo_1b_ab_apply _ _ p q).trans ?_
    rw [shapeCast_self]

/-- The stored position block at an entry. -/
theorem pay1_apply (i : S2000x3.Idx) :
    k1_pay1 (F := Ideal) v29 (k1_pay3 v30) i = v29 i + Ideal.ofBits .f32 0x3C23D70A#32 * v30 i := by
  unfold k1_pay1 k1_pay3
  show v29 i + (Ideal.ofBits .f32 0x3C23D70A#32 * shapeCast S2000x3 v30 _ i) = _
  rw [shapeCast_self]

end Cert.Egnn.Node

end
-- ==== Proof.NodeBlocks.lean ====
/-
  The node kernel's region: its two output arrays after all 25 grid points, as functions of the arrays the region
  finds at its entry.

  Point `t` of the grid reads rows `2000 t .. 2000 t + 1999` of the four per-node inputs and the whole of every weight
  array, and writes back rows `2000 t ..` of the two outputs; the 25 blocks tile the 50000 rows. So the feature array
  ends as the layer's node array (ArraySpec's `nodeArr`) of the entry arrays and the position array as its `posArr`.
-/
import proofs.«128185_j38938173506036_2_alg».proof.Proof.KernelIdealFrameP
import proofs.«128185_j38938173506036_2_alg».proof.Proof.NodePayload
import proofs.«128185_j38938173506036_2_alg».proof.Proof.ArraySpec
import Idealize.ShloMosaic.Lib.Pipeline.Value

set_option maxRecDepth 16384

open scoped BigOperators

noncomputable section

namespace Cert.Egnn.Node

open Cert.KernelIdeal Cert.KernelIdeal.Gen Cert.KernelIdeal.GenP Idealize.ShloMosaic Idealize.ShloMosaic.ValueIdx Idealize.ShloMosaic.TcCoe
open Idealize.SL.Sem Cert.Egnn

variable (V : (c : Dev nD) → (b : Ref sig .tc) → Buf (Elt Ideal) ((c : Thread nD τ).loc b))

theorem hz : (![0, 0] : Fin 2 → Nat) = fun _ => 0 := funext fun a => by fin_cases a <;> rfl

/-- Row `p` of point `t`'s block is row `2000 t + p` of the array. -/
def brow (t : Fin cfg1.N) (p : Fin 2000) : Fin 50000 :=
  ⟨t.val * 2000 + p.val, by have ht : t.val < 25 := t.isLt; have := p.isLt; omega⟩

/-- The printed index maps, decided over the grid: a window over rows is at block `t` of its array at point `t`, a weight
    window always at its one block. -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = t.val
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = t.val
    ∧ win1_9.index t (1 : Fin 2) = 0
    ∧ win1_10.index t (0 : Fin 2) = t.val
    ∧ win1_10.index t (1 : Fin 2) = 0 :=
  (by decide +kernel : ∀ t : Fin grid1.N, _)

/-- Window 0's block at point `t`, row `p`: row `t * 2000 + p` of its array. -/
theorem blk0 (c : Dev nD) (t : Fin cfg1.N) (p : Fin 2000) (k : Fin 128) :
    iblk1 V c 0 t (ix2 p k) = V c main_arg0 (ix2 (brow t p) k) := by
  show V c main_arg0 (((cfg1.win 0).blk t).view.emb (ix2 p k)) = V c main_arg0 (ix2 (brow t p) k)
  refine congrArg _ (funext fun a => Fin.ext ?_)
  obtain ⟨e0a, e0b, e1a, e1b, e2a, e2b, e3a, e3b, e4a, e4b, e5a, e5b, e6a, e6b, e7a, e7b, e8a, e8b, e9a, e9b, e10a, e10b⟩ := idx_facts t
  match a with
  | ⟨0, _⟩ => show win1_0.index t (0 : Fin 2) * 2000 + 1 * p.val = t.val * 2000 + p.val; rw [e0a]; omega
  | ⟨1, _⟩ => show win1_0.index t (1 : Fin 2) * 128 + 1 * k.val = k.val; rw [e0b]; omega

/-- Window 1's block at point `t`, row `p`: row `t * 2000 + p` of its array. -/
theorem blk1 (c : Dev nD) (t : Fin cfg1.N) (p : Fin 2000) (k : Fin 128) :
    iblk1 V c 1 t (ix2 p k) = V c main_v45 (ix2 (brow t p) k) := by
  show V c main_v45 (((cfg1.win 1).blk t).view.emb (ix2 p k)) = V c main_v45 (ix2 (brow t p) k)
  refine congrArg _ (funext fun a => Fin.ext ?_)
  obtain ⟨e0a, e0b, e1a, e1b, e2a, e2b, e3a, e3b, e4a, e4b, e5a, e5b, e6a, e6b, e7a, e7b, e8a, e8b, e9a, e9b, e10a, e10b⟩ := idx_facts t
  match a with
  | ⟨0, _⟩ => show win1_1.index t (0 : Fin 2) * 2000 + 1 * p.val = t.val * 2000 + p.val; rw [e1a]; omega
  | ⟨1, _⟩ => show win1_1.index t (1 : Fin 2) * 128 + 1 * k.val = k.val; rw [e1b]; omega

/-- Window 2's block at point `t`, row `p`: row `t * 2000 + p` of its array. -/
theorem blk2 (c : Dev nD) (t : Fin cfg1.N) (p : Fin 2000) (k : Fin 3) :
    iblk1 V c 2 t (ix2 p k) = V c main_arg1 (ix2 (brow t p) k) := by
  show V c main_arg1 (((cfg1.win 2).blk t).view.emb (ix2 p k)) = V c main_arg1 (ix2 (brow t p) k)
  refine congrArg _ (funext fun a => Fin.ext ?_)
  obtain ⟨e0a, e0b, e1a, e1b, e2a, e2b, e3a, e3b, e4a, e4b, e5a, e5b, e6a, e6b, e7a, e7b, e8a, e8b, e9a, e9b, e10a, e10b⟩ := idx_facts t
  match a with
  | ⟨0, _⟩ => show win1_2.index t (0 : Fin 2) * 2000 + 1 * p.val = t.val * 2000 + p.val; rw [e2a]; omega
  | ⟨1, _⟩ => show win1_2.index t (1 : Fin 2) * 3 + 1 * k.val = k.val; rw [e2b]; omega

/-- Window 3's block at point `t`, row `p`: row `t * 2000 + p` of its array. -/
theorem blk3 (c : Dev nD) (t : Fin cfg1.N) (p : Fin 2000) (k : Fin 3) :
    iblk1 V c 3 t (ix2 p k) = V c main_v48 (ix2 (brow t p) k) := by
  show V c main_v48 (((cfg1.win 3).blk t).view.emb (ix2 p k)) = V c main_v48 (ix2 (brow t p) k)
  refine congrArg _ (funext fun a => Fin.ext ?_)
  obtain ⟨e0a, e0b, e1a, e1b, e2a, e2b, e3a, e3b, e4a, e4b, e5a, e5b, e6a, e6b, e7a, e7b, e8a, e8b, e9a, e9b, e10a, e10b⟩ := idx_facts t
  match a with
  | ⟨0, _⟩ => show win1_3.index t (0 : Fin 2) * 2000 + 1 * p.val = t.val * 2000 + p.val; rw [e3a]; omega
  | ⟨1, _⟩ => show win1_3.index t (1 : Fin 2) * 3 + 1 * k.val = k.val; rw [e3b]; omega

/-- Window 4's block at every point is its whole array. -/
theorem blk4 (c : Dev nD) (t : Fin cfg1.N) : iblk1 V c 4 t = V c main_v49 := by
  funext y
  show V c main_v49 (((cfg1.win 4).blk t).view.emb y) = V c main_v49 y
  refine congrArg _ (funext fun a => Fin.ext ?_)
  obtain ⟨e0a, e0b, e1a, e1b, e2a, e2b, e3a, e3b, e4a, e4b, e5a, e5b, e6a, e6b, e7a, e7b, e8a, e8b, e9a, e9b, e10a, e10b⟩ := idx_facts t
  match a with
  | ⟨0, _⟩ => show win1_4.index t (0 : Fin 2) * 128 + 1 * (y 0).val = (y 0).val; rw [e4a]; omega
  | ⟨1, _⟩ => show win1_4.index t (1 : Fin 2) * 128 + 1 * (y 1).val = (y 1).val; rw [e4b]; omega

/-- Window 5's block at every point is its whole array. -/
theorem blk5 (c : Dev nD) (t : Fin cfg1.N) : iblk1 V c 5 t = V c main_v50 := by
  funext y
  show V c main_v50 (((cfg1.win 5).blk t).view.emb y) = V c main_v50 y
  refine congrArg _ (funext fun a => Fin.ext ?_)
  obtain ⟨e0a, e0b, e1a, e1b, e2a, e2b, e3a, e3b, e4a, e4b, e5a, e5b, e6a, e6b, e7a, e7b, e8a, e8b, e9a, e9b, e10a, e10b⟩ := idx_facts t
  match a with
  | ⟨0, _⟩ => show win1_5.index t (0 : Fin 2) * 128 + 1 * (y 0).val = (y 0).val; rw [e5a]; omega
  | ⟨1, _⟩ => show win1_5.index t (1 : Fin 2) * 128 + 1 * (y 1).val = (y 1).val; rw [e5b]; omega

/-- Window 6's block at every point is its whole array. -/
theorem blk6 (c : Dev nD) (t : Fin cfg1.N) : iblk1 V c 6 t = V c main_v51 := by
  funext y
  show V c main_v51 (((cfg1.win 6).blk t).view.emb y) = V c main_v51 y
  refine congrArg _ (funext fun a => Fin.ext ?_)
  obtain ⟨e0a, e0b, e1a, e1b, e2a, e2b, e3a, e3b, e4a, e4b, e5a, e5b, e6a, e6b, e7a, e7b, e8a, e8b, e9a, e9b, e10a, e10b⟩ := idx_facts t
  match a with
  | ⟨0, _⟩ => show win1_6.index t (0 : Fin 2) * 1 + 1 * (y 0).val = (y 0).val; rw [e6a]; omega
  | ⟨1, _⟩ => show win1_6.index t (1 : Fin 2) * 128 + 1 * (y 1).val = (y 1).val; rw [e6b]; omega

/-- Window 7's block at every point is its whole array. -/
theorem blk7 (c : Dev nD) (t : Fin cfg1.N) : iblk1 V c 7 t = V c main_arg8 := by
  funext y
  show V c main_arg8 (((cfg1.win 7).blk t).view.emb y) = V c main_arg8 y
  refine congrArg _ (funext fun a => Fin.ext ?_)
  obtain ⟨e0a, e0b, e1a, e1b, e2a, e2b, e3a, e3b, e4a, e4b, e5a, e5b, e6a, e6b, e7a, e7b, e8a, e8b, e9a, e9b, e10a, e10b⟩ := idx_facts t
  match a with
  | ⟨0, _⟩ => show win1_7.index t (0 : Fin 2) * 128 + 1 * (y 0).val = (y 0).val; rw [e7a]; omega
  | ⟨1, _⟩ => show win1_7.index t (1 : Fin 2) * 128 + 1 * (y 1).val = (y 1).val; rw [e7b]; omega

/-- Window 8's block at every point is its whole array. -/
theorem blk8 (c : Dev nD) (t : Fin cfg1.N) : iblk1 V c 8 t = V c main_v52 := by
  funext y
  show V c main_v52 (((cfg1.win 8).blk t).view.emb y) = V c main_v52 y
  refine congrArg _ (funext fun a => Fin.ext ?_)
  obtain ⟨e0a, e0b, e1a, e1b, e2a, e2b, e3a, e3b, e4a, e4b, e5a, e5b, e6a, e6b, e7a, e7b, e8a, e8b, e9a, e9b, e10a, e10b⟩ := idx_facts t
  match a with
  | ⟨0, _⟩ => show win1_8.index t (0 : Fin 2) * 1 + 1 * (y 0).val = (y 0).val; rw [e8a]; omega
  | ⟨1, _⟩ => show win1_8.index t (1 : Fin 2) * 128 + 1 * (y 1).val = (y 1).val; rw [e8b]; omega

/-- Output window 9's block at point `t` sits at rows `t * 2000 ..` of its array. -/
theorem emb9 (t : Fin cfg1.N) (p : Fin 2000) (k : Fin 128) :
    ((cfg1.win 9).blk t).view.emb (ix2 p k) = ix2 (brow t p) k := by
  refine funext fun a => Fin.ext ?_
  obtain ⟨e0a, e0b, e1a, e1b, e2a, e2b, e3a, e3b, e4a, e4b, e5a, e5b, e6a, e6b, e7a, e7b, e8a, e8b, e9a, e9b, e10a, e10b⟩ := idx_facts t
  match a with
  | ⟨0, _⟩ => show win1_9.index t (0 : Fin 2) * 2000 + 1 * p.val = t.val * 2000 + p.val; rw [e9a]; omega
  | ⟨1, _⟩ => show win1_9.index t (1 : Fin 2) * 128 + 1 * k.val = k.val; rw [e9b]; omega

/-- An index of the array is in point `t`'s block of window 9 iff each coordinate is in the block's range. -/
theorem mem_blk9 (t : Fin cfg1.N) (i : S50000x128.Idx) :
    i ∈ ((cfg1.win 9).blk t).view.set ↔ ∀ a : Fin 2, win1_9.index t a * S2000x128.size a ≤ (i a).val ∧ (i a).val < win1_9.index t a * S2000x128.size a + S2000x128.size a := by
  show i ∈ ((View.whole main_v53_0).slice (win1_9.rect t)).set ↔ _
  rw [View.set_slice_whole, Rect.mem_set_unit]
  exact Iff.rfl

/-- The blocks of window 9 cover its array: row `r` is in the block of point `r / 2000`. -/
theorem cover9 (i : S50000x128.Idx) :
    ∃ t : Fin cfg1.N, (cfg1.win 9).flush t = true ∧ i ∈ ((cfg1.win 9).blk t).view.set := by
  have hi0 : (i 0).val < 50000 := (i 0).isLt
  have hi1 : (i 1).val < 128 := (i 1).isLt
  refine ⟨⟨(i 0).val / 2000, by show (i 0).val / 2000 < 25; omega⟩, flush1_9 _, ?_⟩
  rw [mem_blk9]
  obtain ⟨e0a, e0b, e1a, e1b, e2a, e2b, e3a, e3b, e4a, e4b, e5a, e5b, e6a, e6b, e7a, e7b, e8a, e8b, e9a, e9b, e10a, e10b⟩ := idx_facts ⟨(i 0).val / 2000, by show (i 0).val / 2000 < 25; omega⟩
  intro a
  match a with
  | ⟨0, _⟩ =>
    show win1_9.index _ (0 : Fin 2) * 2000 ≤ (i 0).val ∧ (i 0).val < win1_9.index _ (0 : Fin 2) * 2000 + 2000
    rw [e9a]
    show (i 0).val / 2000 * 2000 ≤ (i 0).val ∧ (i 0).val < (i 0).val / 2000 * 2000 + 2000
    omega
  | ⟨1, _⟩ =>
    show win1_9.index _ (1 : Fin 2) * 128 ≤ (i 1).val ∧ (i 1).val < win1_9.index _ (1 : Fin 2) * 128 + 128
    rw [e9b]
    omega

/-- Output window 10's block at point `t` sits at rows `t * 2000 ..` of its array. -/
theorem emb10 (t : Fin cfg1.N) (p : Fin 2000) (k : Fin 3) :
    ((cfg1.win 10).blk t).view.emb (ix2 p k) = ix2 (brow t p) k := by
  refine funext fun a => Fin.ext ?_
  obtain ⟨e0a, e0b, e1a, e1b, e2a, e2b, e3a, e3b, e4a, e4b, e5a, e5b, e6a, e6b, e7a, e7b, e8a, e8b, e9a, e9b, e10a, e10b⟩ := idx_facts t
  match a with
  | ⟨0, _⟩ => show win1_10.index t (0 : Fin 2) * 2000 + 1 * p.val = t.val * 2000 + p.val; rw [e10a]; omega
  | ⟨1, _⟩ => show win1_10.index t (1 : Fin 2) * 3 + 1 * k.val = k.val; rw [e10b]; omega

/-- An index of the array is in point `t`'s block of window 10 iff each coordinate is in the block's range. -/
theorem mem_blk10 (t : Fin cfg1.N) (i : S50000x3.Idx) :
    i ∈ ((cfg1.win 10).blk t).view.set ↔ ∀ a : Fin 2, win1_10.index t a * S2000x3.size a ≤ (i a).val ∧ (i a).val < win1_10.index t a * S2000x3.size a + S2000x3.size a := by
  show i ∈ ((View.whole main_v53_1).slice (win1_10.rect t)).set ↔ _
  rw [View.set_slice_whole, Rect.mem_set_unit]
  exact Iff.rfl

/-- The blocks of window 10 cover its array: row `r` is in the block of point `r / 2000`. -/
theorem cover10 (i : S50000x3.Idx) :
    ∃ t : Fin cfg1.N, (cfg1.win 10).flush t = true ∧ i ∈ ((cfg1.win 10).blk t).view.set := by
  have hi0 : (i 0).val < 50000 := (i 0).isLt
  have hi1 : (i 1).val < 3 := (i 1).isLt
  refine ⟨⟨(i 0).val / 2000, by show (i 0).val / 2000 < 25; omega⟩, flush1_10 _, ?_⟩
  rw [mem_blk10]
  obtain ⟨e0a, e0b, e1a, e1b, e2a, e2b, e3a, e3b, e4a, e4b, e5a, e5b, e6a, e6b, e7a, e7b, e8a, e8b, e9a, e9b, e10a, e10b⟩ := idx_facts ⟨(i 0).val / 2000, by show (i 0).val / 2000 < 25; omega⟩
  intro a
  match a with
  | ⟨0, _⟩ =>
    show win1_10.index _ (0 : Fin 2) * 2000 ≤ (i 0).val ∧ (i 0).val < win1_10.index _ (0 : Fin 2) * 2000 + 2000
    rw [e10a]
    show (i 0).val / 2000 * 2000 ≤ (i 0).val ∧ (i 0).val < (i 0).val / 2000 * 2000 + 2000
    omega
  | ⟨1, _⟩ =>
    show win1_10.index _ (1 : Fin 2) * 3 ≤ (i 1).val ∧ (i 1).val < win1_10.index _ (1 : Fin 2) * 3 + 3
    rw [e10b]
    omega

/-- The feature array the region leaves, from the arrays it finds. -/
def featOf (c : Dev nD) : S50000x128.Idx → EReal :=
  nodeArr (V c main_arg0) (V c main_v45) (fun k j => V c main_v49 (ix2 k j)) (fun k j => V c main_v50 (ix2 k j))
    (fun j => V c main_v51 (ix2 (0 : Fin 1) j)) (fun k j => V c main_arg8 (ix2 k j)) (fun j => V c main_v52 (ix2 (0 : Fin 1) j))

/-- The position array the region leaves, from the arrays it finds. -/
def posOf (c : Dev nD) : S50000x3.Idx → EReal := posArr (V c main_arg1) (V c main_v48)

/-- What point `t` writes back to the feature array is block `t` of the layer's node array. -/
theorem flushed9_eq (c : Dev nD) (t : Fin cfg1.N) :
    (dat1 V c).flushed 9 t = ((cfg1.win 9).blk t).view.read (Elt Ideal) (featOf V c) := by
  show (cfg1.win 9).cut (grid1.coords t) ((dat1 V c).after 9 t) = _
  rw [after1_9]
  unfold out1_9
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  show k1_pay2 (iblk1 V c 0 t) (iblk1 V c 1 t) (iblk1 V c 4 t) (iblk1 V c 5 t) (iblk1 V c 6 t) (iblk1 V c 7 t) (iblk1 V c 8 t) (ix2 p q)
    = featOf V c (((cfg1.win 9).blk t).view.emb (ix2 p q))
  rw [emb9]
  refine (pay2_apply (iblk1 V c 0 t) (iblk1 V c 1 t) (iblk1 V c 4 t) (iblk1 V c 5 t) (iblk1 V c 6 t) (iblk1 V c 7 t)
    (iblk1 V c 8 t) p q).trans ?_
  unfold featOf nodeArr
  simp only [blk0, blk1, blk4, blk5, blk6, blk7, blk8]

/-- What point `t` writes back to the position array is block `t` of the layer's position array. -/
theorem flushed10_eq (c : Dev nD) (t : Fin cfg1.N) :
    (dat1 V c).flushed 10 t = ((cfg1.win 10).blk t).view.read (Elt Ideal) (posOf V c) := by
  show (cfg1.win 10).cut (grid1.coords t) ((dat1 V c).after 10 t) = _
  rw [after1_10]
  unfold out1_10
  rw [View.canon_unit_zero hz]
  simp only [View.ld_unit_zero (S := S2000x3) hz]
  funext j
  obtain ⟨p, q, rfl⟩ : ∃ (p : Fin 2000) (q : Fin 3), j = ix2 p q := ⟨j 0, j 1, eq_ix2 j⟩
  show k1_pay1 (iblk1 V c 2 t) (k1_pay3 (iblk1 V c 3 t)) (ix2 p q) = posOf V c (((cfg1.win 10).blk t).view.emb (ix2 p q))
  rw [emb10]
  refine (pay1_apply (iblk1 V c 2 t) (iblk1 V c 3 t) (ix2 p q)).trans ?_
  unfold posOf posArr
  rw [blk2, blk3]

/-- The feature array after the region. -/
theorem final9 (c : Dev nD) : (dat1 V c).arrAt 9 cfg1.N = featOf V c :=
  (dat1 V c).arrAt_eq_of_cover 9 (featOf V c) (fun t _ => flushed9_eq V c t) cover9

/-- The position array after the region. -/
theorem final10 (c : Dev nD) : (dat1 V c).arrAt 10 cfg1.N = posOf V c :=
  (dat1 V c).arrAt_eq_of_cover 10 (posOf V c) (fun t _ => flushed10_eq V c t) cover10

end Cert.Egnn.Node

end
-- ==== Proof.RefEdge.lean ====
/-
  The reference's edge stage is the layer's edge arithmetic.

  The reference concatenates, for every edge, the two gathered feature rows and the squared length of the position
  difference into one row of 257 entries and multiplies it by the whole first weight matrix. Cutting the sum over the
  257 entries into its three parts (RowMath's `sum_split257`) gives the hidden layer as the kernel computes it, from the
  rows 0..127, 128..255 and 256 of that matrix. The reference's `silu` is spelled with negate, exponential, add and
  divide; on the extended reals that is `v * logistic v`.
-/
import proofs.«128185_j38938173506036_2_alg».proof.Proof.Gen.ReferenceIdeal.Read
import proofs.«128185_j38938173506036_2_alg».proof.Proof.LibPlainDot
import proofs.«128185_j38938173506036_2_alg».proof.Proof.ArraySpec

set_option maxRecDepth 65536

open scoped BigOperators

noncomputable section

namespace Cert.Egnn.Ref

open Cert.ReferenceIdeal Cert.ReferenceIdeal.Read Idealize.ShloMosaic Idealize.ShloMosaic.ValueIdx
open Cert.Egnn Cert.LibPlainDot

variable (x0 : (⟨S50000x128, .f32⟩ : BufTy).Contents (Elt Ideal)) (x1 : (⟨S50000x3, .f32⟩ : BufTy).Contents (Elt Ideal))
  (x2 : (⟨S257x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x10 : (⟨S128x1, .f32⟩ : BufTy).Contents (Elt Ideal)) (x11 : (⟨S1, .f32⟩ : BufTy).Contents (Elt Ideal))
  (x12 : (⟨S2x800000, .i32⟩ : BufTy).Contents (Elt Ideal))

/-- The concatenated row's first 128 entries are the first gathered feature row. -/
theorem cat_left (e : Fin 800000) (k : Fin 128) :
    val_main_v36 (F := Ideal) x0 x1 x12 (ix2 e (r257a k)) = val_main_v28 (F := Ideal) x0 x12 (ix2 e k) := by
  unfold val_main_v36
  refine concatenate_apply_piece (t := S800000x257) 1 [⟨S800000x128, val_main_v28 (F := Ideal) x0 x12⟩, ⟨S800000x128, val_main_v35 (F := Ideal) x0 x12⟩, ⟨S800000x1, val_main_v21 (F := Ideal) x1 x12⟩] _ _ 0 (by show (0 : ℕ) < 3; decide) S800000x128 _ rfl rfl 0 rfl (ix2 e k) (fun b => ?_) ?_
  · match b with
    | ⟨0, _⟩ => exact fun _ => rfl
    | ⟨1, _⟩ => exact fun h => absurd rfl h
  · show 0 + k.val = (r257a k).val
    exact Nat.zero_add _

/-- Its next 128 entries are the second gathered feature row. -/
theorem cat_mid (e : Fin 800000) (k : Fin 128) :
    val_main_v36 (F := Ideal) x0 x1 x12 (ix2 e (r257b k)) = val_main_v35 (F := Ideal) x0 x12 (ix2 e k) := by
  unfold val_main_v36
  refine concatenate_apply_piece (t := S800000x257) 1 [⟨S800000x128, val_main_v28 (F := Ideal) x0 x12⟩, ⟨S800000x128, val_main_v35 (F := Ideal) x0 x12⟩, ⟨S800000x1, val_main_v21 (F := Ideal) x1 x12⟩] _ _ 1 (by show (1 : ℕ) < 3; decide) S800000x128 _ rfl rfl 128 rfl (ix2 e k) (fun b => ?_) ?_
  · match b with
    | ⟨0, _⟩ => exact fun _ => rfl
    | ⟨1, _⟩ => exact fun h => absurd rfl h
  · rfl

/-- Its last entry is the squared length of the position difference. -/
theorem cat_last (e : Fin 800000) :
    val_main_v36 (F := Ideal) x0 x1 x12 (ix2 e r257c) = sqLen fun c => val_main_v18 (F := Ideal) x1 x12 (ix2 e c) := by
  unfold val_main_v36
  refine (concatenate_apply_piece (t := S800000x257) 1 [⟨S800000x128, val_main_v28 (F := Ideal) x0 x12⟩, ⟨S800000x128, val_main_v35 (F := Ideal) x0 x12⟩, ⟨S800000x1, val_main_v21 (F := Ideal) x1 x12⟩] _ _ 2 (by show (2 : ℕ) < 3; decide) S800000x1 _ rfl rfl 256 rfl (ix2 e (0 : Fin 1)) (fun b => ?_) ?_).trans ?_
  · match b with
    | ⟨0, _⟩ => exact fun _ => rfl
    | ⟨1, _⟩ => exact fun h => absurd rfl h
  · rfl
  · rw [val_main_v21_apply, val_main_v20_apply]
    unfold sqLen
    refine (congrArg (· + _) (show val_main_cst (F := Ideal) _ = 0 from Ideal.ofBits_zero_f32)).trans ?_
    rw [zero_add]
    refine Finset.sum_congr rfl fun c _ => ?_
    rw [val_main_v19_apply]
    have hi : idx_main_v20 (idx_main_v21 (ix2 e (0 : Fin 1))) c = ix2 e c :=
      funext fun a => Fin.ext (by match a with | ⟨0, _⟩ => rfl | ⟨1, _⟩ => rfl)
    rw [hi]
    rfl

/-- The hidden layer before `silu`, at `(e, j)`. -/
theorem pre_hid_apply (e : Fin 800000) (j : Fin 128) :
    val_main_v40 (F := Ideal) x0 x1 x2 x3 x12 (ix2 e j)
      = (∑ k : Fin 128, val_main_v28 (F := Ideal) x0 x12 (ix2 e k) * x2 (ix2 (r257a k) j))
        + (∑ k : Fin 128, val_main_v35 (F := Ideal) x0 x12 (ix2 e k) * x2 (ix2 (r257b k) j))
        + (sqLen fun c => val_main_v18 (F := Ideal) x1 x12 (ix2 e c)) * x2 (ix2 r257c j)
        + x3 (ix1 j) := by
  rw [val_main_v40_apply]
  refine congrArg₂ (· + ·) ?_ ?_
  · unfold val_main_v37
    refine (dotGeneral_plain none _ _ _ e j).trans ?_
    rw [sum_split257]
    refine congrArg₂ (· + ·) (congrArg₂ (· + ·) ?_ ?_) ?_
    · exact Finset.sum_congr rfl fun k _ => congrArg (· * _) (cat_left x0 x1 x12 e k)
    · exact Finset.sum_congr rfl fun k _ => congrArg (· * _) (cat_mid x0 x1 x12 e k)
    · exact congrArg (fun z => z * x2 (ix2 r257c j)) (cat_last x0 x1 x12 e)
  · rw [val_main_v39_apply, val_main_v38_apply]
    exact congrArg x3 (funext fun a => Fin.ext (by match a with | ⟨0, _⟩ => rfl))

/-- The hidden layer at `(e, j)`. -/
theorem hid_apply (e : Fin 800000) (j : Fin 128) :
    val_main_v47 (F := Ideal) x0 x1 x2 x3 x12 (ix2 e j)
      = edgeHid (fun k => val_main_v28 (F := Ideal) x0 x12 (ix2 e k)) (fun k => val_main_v35 (F := Ideal) x0 x12 (ix2 e k))
          (sqLen fun c => val_main_v18 (F := Ideal) x1 x12 (ix2 e c)) (fun k j => x2 (ix2 (r257a k) j))
          (fun k j => x2 (ix2 (r257b k) j)) (fun j => x2 (ix2 r257c j)) (fun j => x3 (ix1 j)) j := by
  unfold edgeHid
  rw [← pre_hid_apply x0 x1 x2 x3 x12 e j, ← silu_host]
  rfl

/-- The messages are the layer's message array of the gathered rows. -/
theorem msg_eq :
    val_main_v58 (F := Ideal) x0 x1 x2 x3 x4 x5 x12
      = msgArr (val_main_v28 (F := Ideal) x0 x12) (val_main_v35 (F := Ideal) x0 x12) (val_main_v18 (F := Ideal) x1 x12)
          (fun k j => x2 (ix2 (r257a k) j)) (fun k j => x2 (ix2 (r257b k) j))
          (fun j => x2 (ix2 r257c j)) (fun j => x3 (ix1 j)) (fun k j => x4 (ix2 k j)) (fun j => x5 (ix1 j)) := by
  funext i
  obtain ⟨e, q, rfl⟩ : ∃ (e : Fin 800000) (q : Fin 128), i = ix2 e q := ⟨i 0, i 1, eq_ix2 i⟩
  unfold msgArr denseSilu
  have hpre : val_main_v51 (F := Ideal) x0 x1 x2 x3 x4 x5 x12 (ix2 e q)
      = (∑ k : Fin 128, edgeHid (fun k => val_main_v28 (F := Ideal) x0 x12 (ix2 e k)) (fun k => val_main_v35 (F := Ideal) x0 x12 (ix2 e k))
          (sqLen fun c => val_main_v18 (F := Ideal) x1 x12 (ix2 e c)) (fun k j => x2 (ix2 (r257a k) j))
          (fun k j => x2 (ix2 (r257b k) j)) (fun j => x2 (ix2 r257c j)) (fun j => x3 (ix1 j)) k * x4 (ix2 k q))
        + x5 (ix1 q) := by
    rw [val_main_v51_apply]
    refine congrArg₂ (· + ·) ?_ ?_
    · unfold val_main_v48
      refine (dotGeneral_plain none _ _ _ e q).trans ?_
      exact Finset.sum_congr rfl fun k _ => congrArg (· * _) (hid_apply x0 x1 x2 x3 x12 e k)
    · rw [val_main_v50_apply, val_main_v49_apply]
      exact congrArg x5 (funext fun a => Fin.ext (by match a with | ⟨0, _⟩ => rfl))
  show val_main_v58 (F := Ideal) x0 x1 x2 x3 x4 x5 x12 (ix2 e q) = silu _
  rw [← hpre, ← silu_host]
  rfl

/-- The shifts are the layer's shift array of the messages and the position differences. -/
theorem shift_eq :
    val_main_v90 (F := Ideal) x0 x1 x2 x3 x4 x5 x10 x11 x12
      = shiftArr (val_main_v58 (F := Ideal) x0 x1 x2 x3 x4 x5 x12) (val_main_v18 (F := Ideal) x1 x12)
          (fun j => x10 (ix2 j (0 : Fin 1))) (x11 (ix1 (0 : Fin 1))) := by
  funext i
  obtain ⟨e, c, rfl⟩ : ∃ (e : Fin 800000) (c : Fin 3), i = ix2 e c := ⟨i 0, i 1, eq_ix2 i⟩
  unfold shiftArr edgeGate
  rw [val_main_v90_apply, val_main_v89_apply]
  refine congrArg₂ (· * ·) rfl ?_
  have hpre : val_main_v81 (F := Ideal) x0 x1 x2 x3 x4 x5 x10 x11 x12 (ix2 e (0 : Fin 1))
      = (∑ j : Fin 128, val_main_v58 (F := Ideal) x0 x1 x2 x3 x4 x5 x12 (ix2 e j) * x10 (ix2 j (0 : Fin 1))) + x11 (ix1 (0 : Fin 1)) := by
    rw [val_main_v81_apply]
    refine congrArg₂ (· + ·) ?_ ?_
    · unfold val_main_v78
      exact dotGeneral_plain none _ _ _ e (0 : Fin 1)
    · rw [val_main_v80_apply, val_main_v79_apply]
      exact congrArg x11 (funext fun a => Fin.ext (by match a with | ⟨0, _⟩ => rfl))
  have hi : idx_main_v89 (ix2 e c) = ix2 e (0 : Fin 1) :=
    funext fun a => Fin.ext (by match a with | ⟨0, _⟩ => rfl | ⟨1, _⟩ => rfl)
  rw [hi]
  show val_main_v88 (F := Ideal) x0 x1 x2 x3 x4 x5 x10 x11 x12 (ix2 e (0 : Fin 1)) = silu _
  rw [← hpre, ← silu_host]
  rfl

end Cert.Egnn.Ref

end
-- ==== Proof.RefNode.lean ====
/-
  The reference's node stage is the layer's node arithmetic.

  The reference concatenates every node's features with its summed incoming messages into a row of 256 entries and
  multiplies it by the whole inner weight matrix; cutting the sum over the 256 entries in two (RowMath's
  `sum_split256`) gives the inner layer from rows 0..127 and 128..255 of that matrix. The new positions are the
  positions plus the fixed step times the summed shifts, entry by entry.
-/
import proofs.«128185_j38938173506036_2_alg».proof.Proof.Gen.ReferenceIdeal.Read
import proofs.«128185_j38938173506036_2_alg».proof.Proof.LibPlainDot
import proofs.«128185_j38938173506036_2_alg».proof.Proof.ArraySpec

open scoped BigOperators

noncomputable section

namespace Cert.Egnn.Ref

open Cert.ReferenceIdeal Cert.ReferenceIdeal.Read Idealize.ShloMosaic Idealize.ShloMosaic.ValueIdx
open Cert.Egnn Cert.LibPlainDot

variable (x0 : (⟨S50000x128, .f32⟩ : BufTy).Contents (Elt Ideal)) (x1 : (⟨S50000x3, .f32⟩ : BufTy).Contents (Elt Ideal))
  (x2 : (⟨S257x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S256x128, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal))
  (x10 : (⟨S128x1, .f32⟩ : BufTy).Contents (Elt Ideal)) (x11 : (⟨S1, .f32⟩ : BufTy).Contents (Elt Ideal))
  (x12 : (⟨S2x800000, .i32⟩ : BufTy).Contents (Elt Ideal))

/-- The concatenated node row's first 128 entries are the node's features. -/
theorem ncat_left (n : Fin 50000) (k : Fin 128) :
    val_main_v62 (F := Ideal) x0 x1 x2 x3 x4 x5 x12 (ix2 n (r256a k)) = x0 (ix2 n k) := by
  unfold val_main_v62
  refine concatenate_pair_apply_left (t := S50000x256) (s₁ := S50000x128) (s₂ := S50000x128) 1 _ _ _ _ rfl (ix2 n k) (fun b => ?_)
  match b with
  | ⟨0, _⟩ => rfl
  | ⟨1, _⟩ => rfl

/-- Its last 128 entries are the node's summed incoming messages. -/
theorem ncat_right (n : Fin 50000) (k : Fin 128) :
    val_main_v62 (F := Ideal) x0 x1 x2 x3 x4 x5 x12 (ix2 n (r256b k))
      = val_main_v61 (F := Ideal) x0 x1 x2 x3 x4 x5 x12 (ix2 n k) := by
  unfold val_main_v62
  refine concatenate_pair_apply_right (t := S50000x256) (s₁ := S50000x128) (s₂ := S50000x128) 1 _ _ _ _ rfl rfl (ix2 n k) (fun b => ?_) ?_
  · match b with
    | ⟨0, _⟩ => exact fun _ => rfl
    | ⟨1, _⟩ => exact fun h => absurd rfl h
  · show k.val + 128 = (r256b k).val
    exact Nat.add_comm _ _

/-- The inner layer at `(n, j)`. -/
theorem inner_apply (n : Fin 50000) (j : Fin 128) :
    val_main_v73 (F := Ideal) x0 x1 x2 x3 x4 x5 x6 x7 x12 (ix2 n j)
      = nodeHid (fun k => x0 (ix2 n k)) (fun k => val_main_v61 (F := Ideal) x0 x1 x2 x3 x4 x5 x12 (ix2 n k))
          (fun k j => x6 (ix2 (r256a k) j)) (fun k j => x6 (ix2 (r256b k) j)) (fun j => x7 (ix1 j)) j := by
  unfold nodeHid
  have hpre : val_main_v66 (F := Ideal) x0 x1 x2 x3 x4 x5 x6 x7 x12 (ix2 n j)
      = (∑ k : Fin 128, x0 (ix2 n k) * x6 (ix2 (r256a k) j))
        + (∑ k : Fin 128, val_main_v61 (F := Ideal) x0 x1 x2 x3 x4 x5 x12 (ix2 n k) * x6 (ix2 (r256b k) j))
        + x7 (ix1 j) := by
    rw [val_main_v66_apply]
    refine congrArg₂ (· + ·) ?_ ?_
    · unfold val_main_v63
      refine (dotGeneral_plain none _ _ _ n j).trans ?_
      rw [sum_split256]
      refine congrArg₂ (· + ·) ?_ ?_
      · exact Finset.sum_congr rfl fun k _ => congrArg (· * _) (ncat_left x0 x1 x2 x3 x4 x5 x12 n k)
      · exact Finset.sum_congr rfl fun k _ => congrArg (· * _) (ncat_right x0 x1 x2 x3 x4 x5 x12 n k)
    · rw [val_main_v65_apply, val_main_v64_apply]
      exact congrArg x7 (funext fun a => Fin.ext (by match a with | ⟨0, _⟩ => rfl))
  rw [← hpre, ← silu_host]
  rfl

/-- The new features are the layer's node array of the features and the summed messages. -/
theorem node_eq :
    val_main_v77 (F := Ideal) x0 x1 x2 x3 x4 x5 x6 x7 x8 x9 x12
      = nodeArr x0 (val_main_v61 (F := Ideal) x0 x1 x2 x3 x4 x5 x12) (fun k j => x6 (ix2 (r256a k) j))
          (fun k j => x6 (ix2 (r256b k) j)) (fun j => x7 (ix1 j)) (fun k j => x8 (ix2 k j)) (fun j => x9 (ix1 j)) := by
  funext i
  obtain ⟨n, q, rfl⟩ : ∃ (n : Fin 50000) (q : Fin 128), i = ix2 n q := ⟨i 0, i 1, eq_ix2 i⟩
  unfold nodeArr dense
  rw [val_main_v77_apply]
  refine congrArg₂ (· + ·) ?_ ?_
  · unfold val_main_v74
    refine (dotGeneral_plain none _ _ _ n q).trans ?_
    exact Finset.sum_congr rfl fun k _ => congrArg (· * _) (inner_apply x0 x1 x2 x3 x4 x5 x6 x7 x12 n k)
  · rw [val_main_v76_apply, val_main_v75_apply]
    exact congrArg x9 (funext fun a => Fin.ext (by match a with | ⟨0, _⟩ => rfl))

/-- The new positions are the layer's position array of the positions and the summed shifts. -/
theorem pos_eq :
    val_main_v96 (F := Ideal) x0 x1 x2 x3 x4 x5 x10 x11 x12
      = posArr x1 (val_main_v93 (F := Ideal) x0 x1 x2 x3 x4 x5 x10 x11 x12) := by
  funext i
  unfold posArr
  rw [val_main_v96_apply, val_main_v95_apply, val_main_v94_apply]
  rfl

end Cert.Egnn.Ref

end
-- ==== Proof.HostGlue.lean ====
/-
  The host operations around the two regions, read where the regions read them.

  Before the edge kernel's region the host gathers the feature rows and the positions of every edge's two end nodes
  (the same gathers, by the same index arrays, as the reference's; narrowing the features first changes nothing on
  the extended reals), subtracts the positions, and cuts the first weight matrix into its rows 0..127, 128..255 and
  256; the biases become one-row matrices, the gate weights are transposed. So the region's message and shift arrays
  are the reference's. Between the regions the host sums the messages and the shifts into their nodes (the same
  scatter-adds as the reference's, of the same arrays) and cuts the inner weight matrix in two. So the node kernel's
  region leaves the reference's two results.
-/
import proofs.«128185_j38938173506036_2_alg».proof.Proof.KernelIdealFrameP
import proofs.«128185_j38938173506036_2_alg».proof.Proof.Gen.ReferenceIdeal.Read
import proofs.«128185_j38938173506036_2_alg».proof.Proof.EdgeBlocks
import proofs.«128185_j38938173506036_2_alg».proof.Proof.NodeBlocks
import proofs.«128185_j38938173506036_2_alg».proof.Proof.RefEdge
import proofs.«128185_j38938173506036_2_alg».proof.Proof.RefNode
import Idealize.ShloMosaic.Lib.ValueLayout
import Idealize.ShloMosaic.Lib.StableHlo.Run

set_option maxRecDepth 16384

noncomputable section

namespace Cert.Egnn.Host

open Cert.KernelIdeal Cert.KernelIdeal.Gen Cert.KernelIdeal.GenP Idealize.ShloMosaic Idealize.ShloMosaic.ValueIdx Idealize.ShloMosaic.TcCoe
open Idealize.SL.Sem Cert.Egnn Idealize.ShloMosaic.StableHlo

variable (m : (ℓ : Loc nD τ sig) → Buf (Elt Ideal) ℓ) (ρ : Dev nD → PrngReg)

/-! ## Before the edge kernel's region -/

theorem V1_v11 (c : Dev nD) : V1 m ρ c main_v11 = Cert.ReferenceIdeal.Read.val_main_v28 (F := Ideal) (m ((c : Thread nD τ).loc main_arg0)) (m ((c : Thread nD τ).loc main_arg12)) := by
  show StableHlo.after hostOps0 (W0 m ρ c) (Proc.devRef .tc main_v11) = _
  after_results_simp <;> rfl

theorem V1_v18 (c : Dev nD) : V1 m ρ c main_v18 = Cert.ReferenceIdeal.Read.val_main_v35 (F := Ideal) (m ((c : Thread nD τ).loc main_arg0)) (m ((c : Thread nD τ).loc main_arg12)) := by
  show StableHlo.after hostOps0 (W0 m ρ c) (Proc.devRef .tc main_v18) = _
  after_results_simp <;> rfl

theorem V1_v33 (c : Dev nD) : V1 m ρ c main_v33 = Cert.ReferenceIdeal.Read.val_main_v18 (F := Ideal) (m ((c : Thread nD τ).loc main_arg1)) (m ((c : Thread nD τ).loc main_arg12)) := by
  show StableHlo.after hostOps0 (W0 m ρ c) (Proc.devRef .tc main_v33) = _
  after_results_simp <;> rfl

/-- The row indices as the scatter-adds take them. -/
theorem V1_v1 (c : Dev nD) : V1 m ρ c main_v1 = Cert.ReferenceIdeal.Read.val_main_v1 (F := Ideal) (m ((c : Thread nD τ).loc main_arg12)) := by
  show StableHlo.after hostOps0 (W0 m ρ c) (Proc.devRef .tc main_v1) = _
  after_results_simp <;> rfl

theorem V1_v34 (c : Dev nD) (k j : Fin 128) : V1 m ρ c main_v34 (ix2 k j) = (m ((c : Thread nD τ).loc main_arg2)) (ix2 (r257a k) j) := by
  have h : V1 m ρ c main_v34 = extractStridedSlice S128x128 ![0, 0] (m ((c : Thread nD τ).loc main_arg2)) slices_S257x128_S128x128_0_0 := by
    show StableHlo.after hostOps0 (W0 m ρ c) (Proc.devRef .tc main_v34) = _
    after_results_simp <;> rfl
  rw [h]
  exact extractStridedSlice_apply _ _ _ _ _ (fun a => by
    match a with
    | ⟨0, _⟩ => show k.val = 0 + k.val; omega
    | ⟨1, _⟩ => show j.val = 0 + j.val; omega)

theorem V1_v35 (c : Dev nD) (k j : Fin 128) : V1 m ρ c main_v35 (ix2 k j) = (m ((c : Thread nD τ).loc main_arg2)) (ix2 (r257b k) j) := by
  have h : V1 m ρ c main_v35 = extractStridedSlice S128x128 ![128, 0] (m ((c : Thread nD τ).loc main_arg2)) slices_S257x128_S128x128_128_0 := by
    show StableHlo.after hostOps0 (W0 m ρ c) (Proc.devRef .tc main_v35) = _
    after_results_simp <;> rfl
  rw [h]
  exact extractStridedSlice_apply _ _ _ _ _ (fun a => by
    match a with
    | ⟨0, _⟩ => show 128 + k.val = 128 + k.val; rfl
    | ⟨1, _⟩ => show j.val = 0 + j.val; omega)

theorem V1_v36 (c : Dev nD) (j : Fin 128) : V1 m ρ c main_v36 (ix2 (0 : Fin 1) j) = (m ((c : Thread nD τ).loc main_arg2)) (ix2 r257c j) := by
  have h : V1 m ρ c main_v36 = extractStridedSlice S1x128 ![256, 0] (m ((c : Thread nD τ).loc main_arg2)) slices_S257x128_S1x128_256_0 := by
    show StableHlo.after hostOps0 (W0 m ρ c) (Proc.devRef .tc main_v36) = _
    after_results_simp <;> rfl
  rw [h]
  exact extractStridedSlice_apply _ _ _ _ _ (fun a => by
    match a with
    | ⟨0, _⟩ => show 256 = 256 + 0; rfl
    | ⟨1, _⟩ => show j.val = 0 + j.val; omega)

theorem V1_v37 (c : Dev nD) (j : Fin 128) : V1 m ρ c main_v37 (ix2 (0 : Fin 1) j) = (m ((c : Thread nD τ).loc main_arg3)) (ix1 j) := by
  have h : V1 m ρ c main_v37 = shapeCast S1x128 (m ((c : Thread nD τ).loc main_arg3)) shapeCasts_S128_S1x128 := by
    show StableHlo.after hostOps0 (W0 m ρ c) (Proc.devRef .tc main_v37) = _
    after_results_simp <;> rfl
  rw [h]
  exact shapeCast_a_1a_apply _ _ 0 j

theorem V1_v38 (c : Dev nD) (j : Fin 128) : V1 m ρ c main_v38 (ix2 (0 : Fin 1) j) = (m ((c : Thread nD τ).loc main_arg5)) (ix1 j) := by
  have h : V1 m ρ c main_v38 = shapeCast S1x128 (m ((c : Thread nD τ).loc main_arg5)) shapeCasts_S128_S1x128 := by
    show StableHlo.after hostOps0 (W0 m ρ c) (Proc.devRef .tc main_v38) = _
    after_results_simp <;> rfl
  rw [h]
  exact shapeCast_a_1a_apply _ _ 0 j

theorem V1_v39 (c : Dev nD) (j : Fin 128) : V1 m ρ c main_v39 (ix2 (0 : Fin 1) j) = (m ((c : Thread nD τ).loc main_arg10)) (ix2 j (0 : Fin 1)) := by
  have h : V1 m ρ c main_v39 = transpose S1x128 [1, 0] (m ((c : Thread nD τ).loc main_arg10)) transposes_S128x1_S1x128_1_0 := by
    show StableHlo.after hostOps0 (W0 m ρ c) (Proc.devRef .tc main_v39) = _
    after_results_simp <;> rfl
  rw [h]
  exact transpose_ix2_apply _ _ 0 j

theorem V1_v40 (c : Dev nD) : V1 m ρ c main_v40 (ix2 (0 : Fin 1) (0 : Fin 1)) = (m ((c : Thread nD τ).loc main_arg11)) (ix1 (0 : Fin 1)) := by
  have h : V1 m ρ c main_v40 = shapeCast S1x1 (m ((c : Thread nD τ).loc main_arg11)) shapeCasts_S1_S1x1 := by
    show StableHlo.after hostOps0 (W0 m ρ c) (Proc.devRef .tc main_v40) = _
    after_results_simp <;> rfl
  rw [h]
  exact shapeCast_a_1a_apply _ _ 0 0

theorem V1_arg4 (c : Dev nD) : V1 m ρ c main_arg4 = (m ((c : Thread nD τ).loc main_arg4)) := by
  show StableHlo.after hostOps0 (W0 m ρ c) (Proc.devRef .tc main_arg4) = _
  after_results_simp <;> rfl

/-- The edge kernel's region leaves the reference's messages. -/
theorem msg_ref (c : Dev nD) :
    Edge.msgOf (V1 m ρ) c = Cert.ReferenceIdeal.Read.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg12)) := by
  rw [Ref.msg_eq]
  have h34 : (fun k j : Fin 128 => V1 m ρ c main_v34 (ix2 k j)) = fun k j => (m ((c : Thread nD τ).loc main_arg2)) (ix2 (r257a k) j) :=
    funext fun k => funext fun j => V1_v34 m ρ c k j
  have h35 : (fun k j : Fin 128 => V1 m ρ c main_v35 (ix2 k j)) = fun k j => (m ((c : Thread nD τ).loc main_arg2)) (ix2 (r257b k) j) :=
    funext fun k => funext fun j => V1_v35 m ρ c k j
  have h36 : (fun j : Fin 128 => V1 m ρ c main_v36 (ix2 (0 : Fin 1) j)) = fun j => (m ((c : Thread nD τ).loc main_arg2)) (ix2 r257c j) :=
    funext fun j => V1_v36 m ρ c j
  have h37 : (fun j : Fin 128 => V1 m ρ c main_v37 (ix2 (0 : Fin 1) j)) = fun j => (m ((c : Thread nD τ).loc main_arg3)) (ix1 j) :=
    funext fun j => V1_v37 m ρ c j
  have h38 : (fun j : Fin 128 => V1 m ρ c main_v38 (ix2 (0 : Fin 1) j)) = fun j => (m ((c : Thread nD τ).loc main_arg5)) (ix1 j) :=
    funext fun j => V1_v38 m ρ c j
  show msgArr (V1 m ρ c main_v11) (V1 m ρ c main_v18) (V1 m ρ c main_v33) (fun k j => V1 m ρ c main_v34 (ix2 k j))
    (fun k j => V1 m ρ c main_v35 (ix2 k j)) (fun j => V1 m ρ c main_v36 (ix2 (0 : Fin 1) j))
    (fun j => V1 m ρ c main_v37 (ix2 (0 : Fin 1) j)) (fun k j => V1 m ρ c main_arg4 (ix2 k j))
    (fun j => V1 m ρ c main_v38 (ix2 (0 : Fin 1) j)) = _
  rw [h34, h35, h36, h37, h38, V1_v11, V1_v18, V1_v33, V1_arg4]

/-- The edge kernel's region leaves the reference's shifts. -/
theorem shift_ref (c : Dev nD) :
    Edge.shiftOf (V1 m ρ) c
      = Cert.ReferenceIdeal.Read.val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (m ((c : Thread nD τ).loc main_arg12)) := by
  rw [Ref.shift_eq]
  have h39 : (fun j : Fin 128 => V1 m ρ c main_v39 (ix2 (0 : Fin 1) j)) = fun j => (m ((c : Thread nD τ).loc main_arg10)) (ix2 j (0 : Fin 1)) :=
    funext fun j => V1_v39 m ρ c j
  show shiftArr (Edge.msgOf (V1 m ρ) c) (V1 m ρ c main_v33) (fun j => V1 m ρ c main_v39 (ix2 (0 : Fin 1) j))
    (V1 m ρ c main_v40 (ix2 (0 : Fin 1) (0 : Fin 1))) = _
  rw [h39, msg_ref, V1_v33, V1_v40]

/-! ## Between the regions -/

theorem W2_arg0 (c : Dev nD) : W2 m ρ c (Proc.devRef .tc main_arg0) = (m ((c : Thread nD τ).loc main_arg0)) := by
  rw [W2_of_ne m ρ c main_arg0 (by decide)]
  show StableHlo.after hostOps0 (W0 m ρ c) (Proc.devRef .tc main_arg0) = _
  after_results_simp <;> rfl

theorem W2_arg1 (c : Dev nD) : W2 m ρ c (Proc.devRef .tc main_arg1) = (m ((c : Thread nD τ).loc main_arg1)) := by
  rw [W2_of_ne m ρ c main_arg1 (by decide)]
  show StableHlo.after hostOps0 (W0 m ρ c) (Proc.devRef .tc main_arg1) = _
  after_results_simp <;> rfl

theorem W2_arg6 (c : Dev nD) : W2 m ρ c (Proc.devRef .tc main_arg6) = (m ((c : Thread nD τ).loc main_arg6)) := by
  rw [W2_of_ne m ρ c main_arg6 (by decide)]
  show StableHlo.after hostOps0 (W0 m ρ c) (Proc.devRef .tc main_arg6) = _
  after_results_simp <;> rfl

theorem W2_arg7 (c : Dev nD) : W2 m ρ c (Proc.devRef .tc main_arg7) = (m ((c : Thread nD τ).loc main_arg7)) := by
  rw [W2_of_ne m ρ c main_arg7 (by decide)]
  show StableHlo.after hostOps0 (W0 m ρ c) (Proc.devRef .tc main_arg7) = _
  after_results_simp <;> rfl

theorem W2_arg8 (c : Dev nD) : W2 m ρ c (Proc.devRef .tc main_arg8) = (m ((c : Thread nD τ).loc main_arg8)) := by
  rw [W2_of_ne m ρ c main_arg8 (by decide)]
  show StableHlo.after hostOps0 (W0 m ρ c) (Proc.devRef .tc main_arg8) = _
  after_results_simp <;> rfl

theorem W2_arg9 (c : Dev nD) : W2 m ρ c (Proc.devRef .tc main_arg9) = (m ((c : Thread nD τ).loc main_arg9)) := by
  rw [W2_of_ne m ρ c main_arg9 (by decide)]
  show StableHlo.after hostOps0 (W0 m ρ c) (Proc.devRef .tc main_arg9) = _
  after_results_simp <;> rfl

theorem V3_arg0 (c : Dev nD) : V3 m ρ c main_arg0 = (m ((c : Thread nD τ).loc main_arg0)) := by
  show StableHlo.after hostOps1 (W2 m ρ c) (Proc.devRef .tc main_arg0) = _
  after_results_simp
  exact W2_arg0 m ρ c

theorem V3_arg1 (c : Dev nD) : V3 m ρ c main_arg1 = (m ((c : Thread nD τ).loc main_arg1)) := by
  show StableHlo.after hostOps1 (W2 m ρ c) (Proc.devRef .tc main_arg1) = _
  after_results_simp
  exact W2_arg1 m ρ c

theorem V3_arg8 (c : Dev nD) : V3 m ρ c main_arg8 = (m ((c : Thread nD τ).loc main_arg8)) := by
  show StableHlo.after hostOps1 (W2 m ρ c) (Proc.devRef .tc main_arg8) = _
  after_results_simp
  exact W2_arg8 m ρ c

theorem W2_v1 (c : Dev nD) : W2 m ρ c (Proc.devRef .tc main_v1) = Cert.ReferenceIdeal.Read.val_main_v1 (F := Ideal) (m ((c : Thread nD τ).loc main_arg12)) := by
  rw [W2_of_ne m ρ c main_v1 (by decide)]
  exact V1_v1 m ρ c

theorem W2_v41_0 (c : Dev nD) : W2 m ρ c (Proc.devRef .tc main_v41_0)
    = Cert.ReferenceIdeal.Read.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg12)) :=
  (W2_arr m ρ c 11).trans ((Edge.final11 (V1 m ρ) c).trans (msg_ref m ρ c))

theorem W2_v41_1 (c : Dev nD) : W2 m ρ c (Proc.devRef .tc main_v41_1)
    = Cert.ReferenceIdeal.Read.val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (m ((c : Thread nD τ).loc main_arg12)) :=
  (W2_arr m ρ c 12).trans ((Edge.final12 (V1 m ρ) c).trans (shift_ref m ρ c))

/-- The summed messages the node kernel's region finds are the reference's. -/
theorem V3_v45 (c : Dev nD) : V3 m ρ c main_v45
    = Cert.ReferenceIdeal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg12)) := by
  show StableHlo.after hostOps1 (W2 m ρ c) (Proc.devRef .tc main_v45) = _
  after_results_simp
  rw [W2_v1, W2_v41_0]
  rfl

/-- The summed shifts the node kernel's region finds are the reference's. -/
theorem V3_v48 (c : Dev nD) : V3 m ρ c main_v48
    = Cert.ReferenceIdeal.Read.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (m ((c : Thread nD τ).loc main_arg12)) := by
  show StableHlo.after hostOps1 (W2 m ρ c) (Proc.devRef .tc main_v48) = _
  after_results_simp
  rw [W2_v1, W2_v41_1]
  rfl

theorem V3_v49 (c : Dev nD) (k j : Fin 128) : V3 m ρ c main_v49 (ix2 k j) = (m ((c : Thread nD τ).loc main_arg6)) (ix2 (r256a k) j) := by
  have h : V3 m ρ c main_v49 = extractStridedSlice S128x128 ![0, 0] (m ((c : Thread nD τ).loc main_arg6)) slices_S256x128_S128x128_0_0 := by
    show StableHlo.after hostOps1 (W2 m ρ c) (Proc.devRef .tc main_v49) = _
    after_results_simp
    rw [W2_arg6]
  rw [h]
  exact extractStridedSlice_apply _ _ _ _ _ (fun a => by
    match a with
    | ⟨0, _⟩ => show k.val = 0 + k.val; omega
    | ⟨1, _⟩ => show j.val = 0 + j.val; omega)

theorem V3_v50 (c : Dev nD) (k j : Fin 128) : V3 m ρ c main_v50 (ix2 k j) = (m ((c : Thread nD τ).loc main_arg6)) (ix2 (r256b k) j) := by
  have h : V3 m ρ c main_v50 = extractStridedSlice S128x128 ![128, 0] (m ((c : Thread nD τ).loc main_arg6)) slices_S256x128_S128x128_128_0 := by
    show StableHlo.after hostOps1 (W2 m ρ c) (Proc.devRef .tc main_v50) = _
    after_results_simp
    rw [W2_arg6]
  rw [h]
  exact extractStridedSlice_apply _ _ _ _ _ (fun a => by
    match a with
    | ⟨0, _⟩ => show 128 + k.val = 128 + k.val; rfl
    | ⟨1, _⟩ => show j.val = 0 + j.val; omega)

theorem V3_v51 (c : Dev nD) (j : Fin 128) : V3 m ρ c main_v51 (ix2 (0 : Fin 1) j) = (m ((c : Thread nD τ).loc main_arg7)) (ix1 j) := by
  have h : V3 m ρ c main_v51 = shapeCast S1x128 (m ((c : Thread nD τ).loc main_arg7)) shapeCasts_S128_S1x128 := by
    show StableHlo.after hostOps1 (W2 m ρ c) (Proc.devRef .tc main_v51) = _
    after_results_simp
    rw [W2_arg7]
    rfl
  rw [h]
  exact shapeCast_a_1a_apply _ _ 0 j

theorem V3_v52 (c : Dev nD) (j : Fin 128) : V3 m ρ c main_v52 (ix2 (0 : Fin 1) j) = (m ((c : Thread nD τ).loc main_arg9)) (ix1 j) := by
  have h : V3 m ρ c main_v52 = shapeCast S1x128 (m ((c : Thread nD τ).loc main_arg9)) shapeCasts_S128_S1x128 := by
    show StableHlo.after hostOps1 (W2 m ρ c) (Proc.devRef .tc main_v52) = _
    after_results_simp
    rw [W2_arg9]
    rfl
  rw [h]
  exact shapeCast_a_1a_apply _ _ 0 j

/-- The node kernel's region leaves the reference's new features. -/
theorem feat_ref (c : Dev nD) :
    Node.featOf (V3 m ρ) c
      = Cert.ReferenceIdeal.Read.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) := by
  rw [Ref.node_eq]
  have h49 : (fun k j : Fin 128 => V3 m ρ c main_v49 (ix2 k j)) = fun k j => (m ((c : Thread nD τ).loc main_arg6)) (ix2 (r256a k) j) :=
    funext fun k => funext fun j => V3_v49 m ρ c k j
  have h50 : (fun k j : Fin 128 => V3 m ρ c main_v50 (ix2 k j)) = fun k j => (m ((c : Thread nD τ).loc main_arg6)) (ix2 (r256b k) j) :=
    funext fun k => funext fun j => V3_v50 m ρ c k j
  have h51 : (fun j : Fin 128 => V3 m ρ c main_v51 (ix2 (0 : Fin 1) j)) = fun j => (m ((c : Thread nD τ).loc main_arg7)) (ix1 j) :=
    funext fun j => V3_v51 m ρ c j
  have h52 : (fun j : Fin 128 => V3 m ρ c main_v52 (ix2 (0 : Fin 1) j)) = fun j => (m ((c : Thread nD τ).loc main_arg9)) (ix1 j) :=
    funext fun j => V3_v52 m ρ c j
  show nodeArr (V3 m ρ c main_arg0) (V3 m ρ c main_v45) (fun k j => V3 m ρ c main_v49 (ix2 k j))
    (fun k j => V3 m ρ c main_v50 (ix2 k j)) (fun j => V3 m ρ c main_v51 (ix2 (0 : Fin 1) j))
    (fun k j => V3 m ρ c main_arg8 (ix2 k j)) (fun j => V3 m ρ c main_v52 (ix2 (0 : Fin 1) j)) = _
  rw [h49, h50, h51, h52, V3_arg0, V3_v45, V3_arg8]

/-- The node kernel's region leaves the reference's new positions. -/
theorem pos_ref (c : Dev nD) :
    Node.posOf (V3 m ρ) c
      = Cert.ReferenceIdeal.Read.val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (m ((c : Thread nD τ).loc main_arg12)) := by
  rw [Ref.pos_eq]
  show posArr (V3 m ρ c main_arg1) (V3 m ρ c main_v48) = _
  rw [V3_arg1, V3_v48]

/-! ## The two results -/

/-- The kernel program's first result is the reference's first result of the same arguments. -/
theorem out0 (c : Dev nD) : W4 m ρ c (Proc.devRef .tc main_v53_0)
    = Cert.ReferenceIdeal.Read.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) :=
  (W4_arr m ρ c 9).trans ((Node.final9 (V3 m ρ) c).trans (feat_ref m ρ c))

/-- The kernel program's second result is the reference's second result of the same arguments. -/
theorem out1 (c : Dev nD) : W4 m ρ c (Proc.devRef .tc main_v53_1)
    = Cert.ReferenceIdeal.Read.val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (m ((c : Thread nD τ).loc main_arg12)) :=
  (W4_arr m ρ c 10).trans ((Node.final10 (V3 m ρ) c).trans (pos_ref m ρ c))

end Cert.Egnn.Host

end
-- ==== Proof.lean ====
/-
  One message-passing layer on a graph of 50000 nodes and 800000 edges: the kernel program against its reference,
  at the extended reals.

  Both programs gather, for every edge, the feature rows and the positions of its two end nodes, run the edge network
  on them (two dense layers with `silu`, then a gate that scales the position difference), sum the messages and the
  scaled differences into the edges' first end nodes, and run the node network on every node. The kernel program does
  the edge network in one pipelined kernel over blocks of 4000 edges and the node network in another over blocks of
  2000 nodes, with the gathers, the two sums and the cutting of the weight matrices done by host operations around
  them; the reference does everything on whole arrays, multiplying ONE weight matrix by a concatenated row where the
  kernel adds the products of the row's parts by the matrix's parts.

  The two are the same function of the arguments, entry by entry:
  * a sum over the concatenated axis is the sum of the sums over its parts (addition of extended reals is commutative
    and associative; nothing here distributes a product over a sum, so no finiteness of the inputs is used);
  * a matrix product into a zero accumulator, the host's product, a lane reduction and the host's reduction are the
    plain sums over the contracted axis;
  * narrowing to a shorter float format and widening back are the identity on extended reals;
  * the kernel's `logistic` and the reference's `1 / (1 + exp (-v))` are one function;
  * the gathers and the two scatter-adds are applied by both programs to equal arrays with equal index arrays, so they
    are never opened.
  The kernel side reads each region's outputs off its frame run (a block at a grid point is the layer's arithmetic of
  that point's input blocks, and the blocks tile the arrays), composes the regions through the host operations
  between them, and arrives at the reference's own terms of the kernel's arguments (HostGlue's `out0`, `out1`).

  The three frames are the generated frame runs (for the two kernel programs, patched copies of the generated modules:
  see their headers); the idealization rewrote nothing, so `preserves` is trivial.
-/
import proofs.«128185_j38938173506036_2_alg».proof.Defs
import proofs.«128185_j38938173506036_2_alg».proof.Proof.Gen.Kernel
import proofs.«128185_j38938173506036_2_alg».proof.Proof.Gen.KernelIdeal
import proofs.«128185_j38938173506036_2_alg».proof.Proof.Gen.ReferenceIdeal
import proofs.«128185_j38938173506036_2_alg».proof.Proof.Gen.ReferenceIdeal.Run
import proofs.«128185_j38938173506036_2_alg».proof.Proof.Gen.ReferenceIdeal.Read
import proofs.«128185_j38938173506036_2_alg».proof.Proof.Gen.Pre_finite_inputs
import proofs.«128185_j38938173506036_2_alg».proof.Proof.KernelFrameP
import proofs.«128185_j38938173506036_2_alg».proof.Proof.KernelIdealFrameP
import proofs.«128185_j38938173506036_2_alg».proof.Proof.KernelRun
import proofs.«128185_j38938173506036_2_alg».proof.Proof.HostGlue
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.GenP.frame m ρ

theorem frame_ki : Cert.frame_KernelIdeal := fun m ρ _ => Cert.KernelIdeal.GenP.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the reference's two result terms of the kernel program's arguments: the kernel program by
    its regions' values composed through the host operations, the reference by its run, the arguments agreeing. -/
theorem algebraic : Cert.algebraic_KernelIdeal_ReferenceIdeal := by
  intro m ρ m' ρ' _ hagree
  refine ⟨fun c => Cert.ReferenceIdeal.Read.val_main_v77 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg12)),
    fun c => Cert.ReferenceIdeal.Read.val_main_v96 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun _ h c => ⟨(h c).1.trans (Cert.Egnn.Host.out0 m ρ c), (h c).2.1.trans (Cert.Egnn.Host.out1 m ρ c), (h c).2.2⟩)
      (Cert.KernelIdeal.RunNamed.run_named (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · obtain ⟨e0, e1, e2, e3, e4, e5, e6, e7, e8, e9, e10, e11, e12⟩ := hagree c
      rw [Cert.ReferenceIdeal.Read.val_main_v77_eq, e0, e1, e2, e3, e4, e5, e6, e7, e8, e9, e12]
    · obtain ⟨e0, e1, e2, e3, e4, e5, e6, e7, e8, e9, e10, e11, e12⟩ := hagree c
      rw [Cert.ReferenceIdeal.Read.val_main_v96_eq, e0, e1, e2, e3, e4, e5, e10, e11, e12]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
